-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x64x64 : Shape := ⟨4, ![64, 16, 64, 64]⟩
abbrev S3844x144x32 : Shape := ⟨3, ![3844, 144, 32]⟩
abbrev S_ : Shape := ⟨0, ![]⟩

class Facts : Prop where
  bcast_S_S64x16x64x64 : S_.BroadcastsInDim S64x16x64x64 (![] : Fin 0 → Fin S64x16x64x64.rank)
  reducesTo_S64x16x64x64_S_d0_1_2_3 : S64x16x64x64.ReducesTo [0, 1, 2, 3] S_
  h_S_ : 0 < S_.numel
  bcast_S_S3844x144x32 : S_.BroadcastsInDim S3844x144x32 (![] : Fin 0 → Fin S3844x144x32.rank)
  reducesTo_S3844x144x32_S_d0_1_2 : S3844x144x32.ReducesTo [0, 1, 2] S_

variable [Facts]

def fn {F : FTy → Type} [FloatOps F] (main_arg0 : FVec F S64x16x64x64 .f32) (main_arg1 : FVec F S3844x144x32 .f32) : IVec S_ 1 :=
  let main_v0 : FVec F S64x16x64x64 .f32 := Host.absf main_arg0
  let main_cst : FVec F S_ .f32 := constant S_ .f32 0x7F800000#32
  let main_v1 : FVec F S64x16x64x64 .f32 := broadcastInDim S64x16x64x64 ![] bcast_S_S64x16x64x64 main_cst
  let main_v2 : IVec S64x16x64x64 1 := cmpf .olt main_v0 main_v1
  let main_c : IVec S_ 1 := constantI S_ 1 1#1
  let main_v3 : IVec S_ 1 := (fun x v => Host.reduce IntOp.andi x v reducesTo_S64x16x64x64_S_d0_1_2_3 h_S_) main_v2 main_c
  let main_v4 : FVec F S3844x144x32 .f32 := Host.absf main_arg1
  let main_cst_0 : FVec F S_ .f32 := constant S_ .f32 0x7F800000#32
  let main_v5 : FVec F S3844x144x32 .f32 := broadcastInDim S3844x144x32 ![] bcast_S_S3844x144x32 main_cst_0
  let main_v6 : IVec S3844x144x32 1 := cmpf .olt main_v4 main_v5
  let main_c_1 : IVec S_ 1 := constantI S_ 1 1#1
  let main_v7 : IVec S_ 1 := (fun x v => Host.reduce IntOp.andi x v reducesTo_S3844x144x32_S_d0_1_2 h_S_) main_v6 main_c_1
  let main_v8 : IVec S_ 1 := andi main_v3 main_v7
  main_v8
-- ==== Kernel.lean ====
abbrev S64x16x64x64 : Shape := ⟨4, ![64, 16, 64, 64]⟩
abbrev S3844x144x32 : Shape := ⟨3, ![3844, 144, 32]⟩
abbrev S64x64x64x16 : Shape := ⟨4, ![64, 64, 64, 16]⟩
abbrev S64x64x1024 : Shape := ⟨3, ![64, 64, 1024]⟩
abbrev S62x62x2048 : Shape := ⟨3, ![62, 62, 2048]⟩
abbrev S62x144x32 : Shape := ⟨3, ![62, 144, 32]⟩
abbrev S1x62x2048 : Shape := ⟨3, ![1, 62, 2048]⟩
abbrev S62x64x144 : Shape := ⟨3, ![62, 64, 144]⟩
abbrev S3x64x1024 : Shape := ⟨3, ![3, 64, 1024]⟩
abbrev S1x64x1024 : Shape := ⟨3, ![1, 64, 1024]⟩
abbrev S1x62x1024 : Shape := ⟨3, ![1, 62, 1024]⟩
abbrev S1x62x64x16 : Shape := ⟨4, ![1, 62, 64, 16]⟩
abbrev S62x64x16 : Shape := ⟨3, ![62, 64, 16]⟩
abbrev S62x16x9x32 : Shape := ⟨4, ![62, 16, 9, 32]⟩
abbrev S62x32x9x16 : Shape := ⟨4, ![62, 32, 9, 16]⟩
abbrev S62x32x144 : Shape := ⟨3, ![62, 32, 144]⟩
abbrev S62x32x64 : Shape := ⟨3, ![62, 32, 64]⟩
abbrev S62x62x32x64 : Shape := ⟨4, ![62, 62, 32, 64]⟩
abbrev S64x32x62x62 : Shape := ⟨4, ![64, 32, 62, 62]⟩

abbrev nBuf : Space → Nat
  | .hbm => 8
  | .vmem => 6
  | .smem => 0
  | _ => 0

abbrev bufTy : (tb : Table) → Fin (tcTables nBuf tb) → BufTy
  | .hbm, ⟨0, _⟩ => ⟨S64x16x64x64, .f32⟩
  | .hbm, ⟨1, _⟩ => ⟨S3844x144x32, .f32⟩
  | .hbm, ⟨2, _⟩ => ⟨S64x64x64x16, .f32⟩
  | .hbm, ⟨3, _⟩ => ⟨S64x64x1024, .f32⟩
  | .hbm, ⟨4, _⟩ => ⟨S64x64x1024, .bf16⟩
  | .hbm, ⟨5, _⟩ => ⟨S62x62x2048, .f32⟩
  | .hbm, ⟨6, _⟩ => ⟨S62x62x32x64, .f32⟩
  | .hbm, ⟨7, _⟩ => ⟨S64x32x62x62, .f32⟩
  | .local _ .vmem, ⟨0, _⟩ => ⟨S64x64x1024, .bf16⟩
  | .local _ .vmem, ⟨1, _⟩ => ⟨S62x144x32, .f32⟩
  | .local _ .vmem, ⟨2, _⟩ => ⟨S62x144x32, .f32⟩
  | .local _ .vmem, ⟨3, _⟩ => ⟨S1x62x2048, .f32⟩
  | .local _ .vmem, ⟨4, _⟩ => ⟨S1x62x2048, .f32⟩
  | .local _ .vmem, ⟨5, _⟩ => ⟨S62x64x144, .bf16⟩
  | _, _ => ⟨S64x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![62], ![false]⟩

def k0_off1 (i : grid0.Coords) : Fin 3 → Nat :=
  let arg0 : BitVec 32 := BitVec.ofNat 32 (i 0).val
  let c1_i32 : BitVec 32 := 1#32
  let v0 : BitVec 32 := Scalar.muli arg0 c1_i32
  let v1 : Index := Scalar.indexCast v0
  let c0 : Index := 0#32
  let c0_0 : Index := 0#32
  ![v1.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S62x144x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x62x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x16x64x64_S64x64x64x16_2_3_0_1 : S64x16x64x64.Transposes [2, 3, 0, 1] S64x64x64x16
  shapeCasts_S64x64x64x16_S64x64x1024 : S64x64x64x16.ShapeCasts S64x64x1024
  bitsLt_bf16_f32 : FTy.bits .bf16 < FTy.bits .f32
  h_S3x64x1024 : 0 < S3x64x1024.numel
  shapeCasts_S3x64x1024_S3x64x1024 : S3x64x1024.ShapeCasts S3x64x1024
  slices_S3x64x1024_o0_0_0_S1x64x1024 : S3x64x1024.Slices ![0, 0, 0] S1x64x1024
  slices_S1x64x1024_o0_0_0_S1x62x1024 : S1x64x1024.Slices ![0, 0, 0] S1x62x1024
  shapeCasts_S1x62x1024_S1x62x64x16 : S1x62x1024.ShapeCasts S1x62x64x16
  shapeCasts_S1x62x64x16_S62x64x16 : S1x62x64x16.ShapeCasts S62x64x16
  inb_S62x64x144_S62x64x16_0_0_0 : ∀ a, (![0, 0, 0] : Fin 3 → Nat) a + S62x64x16.size a ≤ S62x64x144.size a
  h_S62x64x16 : 0 < S62x64x16.numel
  shapeCasts_S62x64x16_S62x64x16 : S62x64x16.ShapeCasts S62x64x16
  packedbf16_S62x64x144_S62x64x16_0_0_0 : (Rect.unit (s := S62x64x144) ![0, 0, 0] S62x64x16.size inb_S62x64x144_S62x64x16_0_0_0).PackedRows (EltTy.packing .bf16)
  slices_S1x64x1024_o0_1_0_S1x62x1024 : S1x64x1024.Slices ![0, 1, 0] S1x62x1024
  inb_S62x64x144_S62x64x16_0_0_16 : ∀ a, (![0, 0, 16] : Fin 3 → Nat) a + S62x64x16.size a ≤ S62x64x144.size a
  packedbf16_S62x64x144_S62x64x16_0_0_16 : (Rect.unit (s := S62x64x144) ![0, 0, 16] S62x64x16.size inb_S62x64x144_S62x64x16_0_0_16).PackedRows (EltTy.packing .bf16)
  slices_S1x64x1024_o0_2_0_S1x62x1024 : S1x64x1024.Slices ![0, 2, 0] S1x62x1024
  inb_S62x64x144_S62x64x16_0_0_32 : ∀ a, (![0, 0, 32] : Fin 3 → Nat) a + S62x64x16.size a ≤ S62x64x144.size a
  packedbf16_S62x64x144_S62x64x16_0_0_32 : (Rect.unit (s := S62x64x144) ![0, 0, 32] S62x64x16.size inb_S62x64x144_S62x64x16_0_0_32).PackedRows (EltTy.packing .bf16)
  slices_S3x64x1024_o1_0_0_S1x64x1024 : S3x64x1024.Slices ![1, 0, 0] S1x64x1024
  inb_S62x64x144_S62x64x16_0_0_48 : ∀ a, (![0, 0, 48] : Fin 3 → Nat) a + S62x64x16.size a ≤ S62x64x144.size a
  packedbf16_S62x64x144_S62x64x16_0_0_48 : (Rect.unit (s := S62x64x144) ![0, 0, 48] S62x64x16.size inb_S62x64x144_S62x64x16_0_0_48).PackedRows (EltTy.packing .bf16)
  inb_S62x64x144_S62x64x16_0_0_64 : ∀ a, (![0, 0, 64] : Fin 3 → Nat) a + S62x64x16.size a ≤ S62x64x144.size a
  packedbf16_S62x64x144_S62x64x16_0_0_64 : (Rect.unit (s := S62x64x144) ![0, 0, 64] S62x64x16.size inb_S62x64x144_S62x64x16_0_0_64).PackedRows (EltTy.packing .bf16)
  inb_S62x64x144_S62x64x16_0_0_80 : ∀ a, (![0, 0, 80] : Fin 3 → Nat) a + S62x64x16.size a ≤ S62x64x144.size a
  packedbf16_S62x64x144_S62x64x16_0_0_80 : (Rect.unit (s := S62x64x144) ![0, 0, 80] S62x64x16.size inb_S62x64x144_S62x64x16_0_0_80).PackedRows (EltTy.packing .bf16)
  slices_S3x64x1024_o2_0_0_S1x64x1024 : S3x64x1024.Slices ![2, 0, 0] S1x64x1024
  inb_S62x64x144_S62x64x16_0_0_96 : ∀ a, (![0, 0, 96] : Fin 3 → Nat) a + S62x64x16.size a ≤ S62x64x144.size a
  packedbf16_S62x64x144_S62x64x16_0_0_96 : (Rect.unit (s := S62x64x144) ![0, 0, 96] S62x64x16.size inb_S62x64x144_S62x64x16_0_0_96).PackedRows (EltTy.packing .bf16)
  inb_S62x64x144_S62x64x16_0_0_112 : ∀ a, (![0, 0, 112] : Fin 3 → Nat) a + S62x64x16.size a ≤ S62x64x144.size a
  packedbf16_S62x64x144_S62x64x16_0_0_112 : (Rect.unit (s := S62x64x144) ![0, 0, 112] S62x64x16.size inb_S62x64x144_S62x64x16_0_0_112).PackedRows (EltTy.packing .bf16)
  inb_S62x64x144_S62x64x16_0_0_128 : ∀ a, (![0, 0, 128] : Fin 3 → Nat) a + S62x64x16.size a ≤ S62x64x144.size a
  packedbf16_S62x64x144_S62x64x16_0_0_128 : (Rect.unit (s := S62x64x144) ![0, 0, 128] S62x64x16.size inb_S62x64x144_S62x64x16_0_0_128).PackedRows (EltTy.packing .bf16)
  inb_S62x144x32_S62x144x32_0_0_0 : ∀ a, (![0, 0, 0] : Fin 3 → Nat) a + S62x144x32.size a ≤ S62x144x32.size a
  h_S62x144x32 : 0 < S62x144x32.numel
  shapeCasts_S62x144x32_S62x16x9x32 : S62x144x32.ShapeCasts S62x16x9x32
  transposes_S62x16x9x32_p0_3_2_1_S62x32x9x16 : S62x16x9x32.Transposes [0, 3, 2, 1] S62x32x9x16
  shapeCasts_S62x32x9x16_S62x32x144 : S62x32x9x16.ShapeCasts S62x32x144
  inb_S62x64x144_S62x64x144_0_0_0 : ∀ a, (![0, 0, 0] : Fin 3 → Nat) a + S62x64x144.size a ≤ S62x64x144.size a
  h_S62x64x144 : 0 < S62x64x144.numel
  shapeCasts_S62x32x64_S1x62x2048 : S62x32x64.ShapeCasts S1x62x2048
  inb_S1x62x2048_S1x62x2048_0_0_0 : ∀ a, (![0, 0, 0] : Fin 3 → Nat) a + S1x62x2048.size a ≤ S1x62x2048.size a
  h_S1x62x2048 : 0 < S1x62x2048.numel
  shapeCasts_S62x62x2048_S62x62x32x64 : S62x62x2048.ShapeCasts S62x62x32x64
  transposes_S62x62x32x64_S64x32x62x62_3_2_0_1 : S62x62x32x64.Transposes [3, 2, 0, 1] S64x32x62x62
  dot_S62x32x144_S62x64x144_S62x32x64_2_2_1_1_0_0_wf : DotDims.WF S62x32x144 S62x64x144 S62x32x64 [2] [2] [1] [1] [0] [0]
  hrank0 : 0 < grid0.rank
  k0_off1_inb : ∀ i : grid0.Coords, ∀ a, (k0_off1 i) a + S3x64x1024.size a ≤ S64x64x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64x1024.size a ≤ S64x64x1024.size a
  hwx0_0 : ∀ i : grid0.Coords, EltTy.bits .bf16 = 32 ∨ (Rect.block (s := S64x64x1024) S64x64x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S62x144x32.size a ≤ S3844x144x32.size a
  hwx0_1 : ∀ i : grid0.Coords, EltTy.bits .f32 = 32 ∨ (Rect.block (s := S3844x144x32) S62x144x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x62x2048.size a ≤ S62x62x2048.size a
  hwx0_2 : ∀ i : grid0.Coords, EltTy.bits .f32 = 32 ∨ (Rect.block (s := S62x62x2048) S1x62x2048.size (cc0_transform_2 i) (hinb0_2 i)).WholeWords (EltTy.packing .f32)

variable [Facts₀]

def dot_S62x32x144_S62x64x144_S62x32x64_2_2_1_1_0_0 : DotDims S62x32x144 S62x64x144 S62x32x64 where
  lhsContracting := [2]
  rhsContracting := [2]
  lhsNonContracting := [1]
  rhsNonContracting := [1]
  lhsBatch := [0]
  rhsBatch := [0]
  wf := dot_S62x32x144_S62x64x144_S62x32x64_2_2_1_1_0_0_wf

abbrev win0_0 : Pipeline.Window sig grid0 :=
  Pipeline.Window.ofSpec (Memref.whole main_v2) S64x64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S62x144x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x62x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16x64x64 : Shape := ⟨4, ![64, 16, 64, 64]⟩
abbrev S3844x144x32 : Shape := ⟨3, ![3844, 144, 32]⟩
abbrev S62 : Shape := ⟨1, ![62]⟩
abbrev S_ : Shape := ⟨0, ![]⟩
abbrev S62x1 : Shape := ⟨2, ![62, 1]⟩
abbrev S3 : Shape := ⟨1, ![3]⟩
abbrev S1x3 : Shape := ⟨2, ![1, 3]⟩
abbrev S62x3 : Shape := ⟨2, ![62, 3]⟩
abbrev S62x3x1x1 : Shape := ⟨4, ![62, 3, 1, 1]⟩
abbrev S1x1x62x3 : Shape := ⟨4, ![1, 1, 62, 3]⟩
abbrev S62x3x62x3 : Shape := ⟨4, ![62, 3, 62, 3]⟩
abbrev S62x3x62x3x1 : Shape := ⟨5, ![62, 3, 62, 3, 1]⟩
abbrev S62x3x62x3x2 : Shape := ⟨5, ![62, 3, 62, 3, 2]⟩
abbrev S64x16x62x3x62x3 : Shape := ⟨6, ![64, 16, 62, 3, 62, 3]⟩
abbrev S62x62x64x16x3x3 : Shape := ⟨6, ![62, 62, 64, 16, 3, 3]⟩
abbrev S3844x64x144 : Shape := ⟨3, ![3844, 64, 144]⟩
abbrev S3844x64x32 : Shape := ⟨3, ![3844, 64, 32]⟩
abbrev S62x62x64x32 : Shape := ⟨4, ![62, 62, 64, 32]⟩
abbrev S64x32x62x62 : Shape := ⟨4, ![64, 32, 62, 62]⟩

abbrev nBuf : Space → Nat
  | .hbm => 49
  | .vmem => 0
  | .smem => 0
  | _ => 0

abbrev bufTy : (tb : Table) → Fin (tcTables nBuf tb) → BufTy
  | .hbm, ⟨0, _⟩ => ⟨S64x16x64x64, .f32⟩
  | .hbm, ⟨1, _⟩ => ⟨S3844x144x32, .f32⟩
  | .hbm, ⟨2, _⟩ => ⟨S62, .i32⟩
  | .hbm, ⟨3, _⟩ => ⟨S_, .i32⟩
  | .hbm, ⟨4, _⟩ => ⟨S62, .i32⟩
  | .hbm, ⟨5, _⟩ => ⟨S62, .i32⟩
  | .hbm, ⟨6, _⟩ => ⟨S62x1, .i32⟩
  | .hbm, ⟨7, _⟩ => ⟨S3, .i32⟩
  | .hbm, ⟨8, _⟩ => ⟨S1x3, .i32⟩
  | .hbm, ⟨9, _⟩ => ⟨S62x3, .i32⟩
  | .hbm, ⟨10, _⟩ => ⟨S62x3, .i32⟩
  | .hbm, ⟨11, _⟩ => ⟨S62x3, .i32⟩
  | .hbm, ⟨12, _⟩ => ⟨S62, .i32⟩
  | .hbm, ⟨13, _⟩ => ⟨S_, .i32⟩
  | .hbm, ⟨14, _⟩ => ⟨S62, .i32⟩
  | .hbm, ⟨15, _⟩ => ⟨S62, .i32⟩
  | .hbm, ⟨16, _⟩ => ⟨S62x1, .i32⟩
  | .hbm, ⟨17, _⟩ => ⟨S3, .i32⟩
  | .hbm, ⟨18, _⟩ => ⟨S1x3, .i32⟩
  | .hbm, ⟨19, _⟩ => ⟨S62x3, .i32⟩
  | .hbm, ⟨20, _⟩ => ⟨S62x3, .i32⟩
  | .hbm, ⟨21, _⟩ => ⟨S62x3, .i32⟩
  | .hbm, ⟨22, _⟩ => ⟨S62x3x1x1, .i32⟩
  | .hbm, ⟨23, _⟩ => ⟨S1x1x62x3, .i32⟩
  | .hbm, ⟨24, _⟩ => ⟨S_, .i32⟩
  | .hbm, ⟨25, _⟩ => ⟨S62x3x1x1, .i32⟩
  | .hbm, ⟨26, _⟩ => ⟨S62x3x1x1, .i1⟩
  | .hbm, ⟨27, _⟩ => ⟨S_, .i32⟩
  | .hbm, ⟨28, _⟩ => ⟨S62x3x1x1, .i32⟩
  | .hbm, ⟨29, _⟩ => ⟨S62x3x1x1, .i32⟩
  | .hbm, ⟨30, _⟩ => ⟨S62x3x1x1, .i32⟩
  | .hbm, ⟨31, _⟩ => ⟨S_, .i32⟩
  | .hbm, ⟨32, _⟩ => ⟨S1x1x62x3, .i32⟩
  | .hbm, ⟨33, _⟩ => ⟨S1x1x62x3, .i1⟩
  | .hbm, ⟨34, _⟩ => ⟨S_, .i32⟩
  | .hbm, ⟨35, _⟩ => ⟨S1x1x62x3, .i32⟩
  | .hbm, ⟨36, _⟩ => ⟨S1x1x62x3, .i32⟩
  | .hbm, ⟨37, _⟩ => ⟨S1x1x62x3, .i32⟩
  | .hbm, ⟨38, _⟩ => ⟨S62x3x62x3, .i32⟩
  | .hbm, ⟨39, _⟩ => ⟨S62x3x62x3, .i32⟩
  | .hbm, ⟨40, _⟩ => ⟨S62x3x62x3x1, .i32⟩
  | .hbm, ⟨41, _⟩ => ⟨S62x3x62x3x1, .i32⟩
  | .hbm, ⟨42, _⟩ => ⟨S62x3x62x3x2, .i32⟩
  | .hbm, ⟨43, _⟩ => ⟨S64x16x62x3x62x3, .f32⟩
  | .hbm, ⟨44, _⟩ => ⟨S62x62x64x16x3x3, .f32⟩
  | .hbm, ⟨45, _⟩ => ⟨S3844x64x144, .f32⟩
  | .hbm, ⟨46, _⟩ => ⟨S3844x64x32, .f32⟩
  | .hbm, ⟨47, _⟩ => ⟨S62x62x64x32, .f32⟩
  | .hbm, ⟨48, _⟩ => ⟨S64x32x62x62, .f32⟩
  | _, _ => ⟨S64x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S3_S1x3_1 : S3.BroadcastsInDim S1x3 (![1] : Fin 1 → Fin S1x3.rank)
  bcast_S62x1_S62x3_0_1 : S62x1.BroadcastsInDim S62x3 (![0, 1] : Fin 2 → Fin S62x3.rank)
  bcast_S1x3_S62x3_0_1 : S1x3.BroadcastsInDim S62x3 (![0, 1] : Fin 2 → Fin S62x3.rank)
  bcast_S62x3_S62x3x1x1_0_1 : S62x3.BroadcastsInDim S62x3x1x1 (![0, 1] : Fin 2 → Fin S62x3x1x1.rank)
  bcast_S62x3_S1x1x62x3_2_3 : S62x3.BroadcastsInDim S1x1x62x3 (![2, 3] : Fin 2 → Fin S1x1x62x3.rank)
  bcast_S_S62x3x1x1 : S_.BroadcastsInDim S62x3x1x1 (![] : Fin 0 → Fin S62x3x1x1.rank)
  bcast_S_S1x1x62x3 : S_.BroadcastsInDim S1x1x62x3 (![] : Fin 0 → Fin S1x1x62x3.rank)
  bcast_S62x3x1x1_S62x3x62x3_0_1_2_3 : S62x3x1x1.BroadcastsInDim S62x3x62x3 (![0, 1, 2, 3] : Fin 4 → Fin S62x3x62x3.rank)
  bcast_S1x1x62x3_S62x3x62x3_0_1_2_3 : S1x1x62x3.BroadcastsInDim S62x3x62x3 (![0, 1, 2, 3] : Fin 4 → Fin S62x3x62x3.rank)
  bcast_S62x3x62x3_S62x3x62x3x1_0_1_2_3 : S62x3x62x3.BroadcastsInDim S62x3x62x3x1 (![0, 1, 2, 3] : Fin 4 → Fin S62x3x62x3x1.rank)
  concatenates_S62x3x62x3x1_S62x3x62x3x1_S62x3x62x3x2_d4 : Shape.Concatenates [S62x3x62x3x1, S62x3x62x3x1] S62x3x62x3x2 4
  transposes_S64x16x62x3x62x3_S62x62x64x16x3x3_2_4_0_1_3_5 : S64x16x62x3x62x3.Transposes [2, 4, 0, 1, 3, 5] S62x62x64x16x3x3
  shapeCasts_S62x62x64x16x3x3_S3844x64x144 : S62x62x64x16x3x3.ShapeCasts S3844x64x144
  shapeCasts_S3844x64x32_S62x62x64x32 : S3844x64x32.ShapeCasts S62x62x64x32
  transposes_S62x62x64x32_S64x32x62x62_2_3_0_1 : S62x62x64x32.Transposes [2, 3, 0, 1] S64x32x62x62
  gather_S64x16x64x64_S62x3x62x3x2_S64x16x62x3x62x3_01_23_n_n_23_4_641611_wf : GatherDims.WF S64x16x64x64 S62x3x62x3x2 S64x16x62x3x62x3 [0, 1] [2, 3] [] [2, 3] [] 4 ![64, 16, 1, 1]
  dot_S3844x64x144_S3844x144x32_S3844x64x32_2_1_1_2_0_0_wf : DotDims.WF S3844x64x144 S3844x144x32 S3844x64x32 [2] [1] [1] [2] [0] [0]

variable [Facts₀]

def gather_S64x16x64x64_S62x3x62x3x2_S64x16x62x3x62x3_01_23_n_n_23_4_641611 : GatherDims S64x16x64x64 S62x3x62x3x2 S64x16x62x3x62x3 where
  offsetDims := [0, 1]
  collapsedSliceDims := [2, 3]
  operandBatchingDims := []
  startIndicesBatchingDims := []
  startIndexMap := [2, 3]
  indexVectorDim := 4
  sliceSizes := ![64, 16, 1, 1]
  wf := gather_S64x16x64x64_S62x3x62x3x2_S64x16x62x3x62x3_01_23_n_n_23_4_641611_wf
def dot_S3844x64x144_S3844x144x32_S3844x64x32_2_1_1_2_0_0 : DotDims S3844x64x144 S3844x144x32 S3844x64x32 where
  lhsContracting := [2]
  rhsContracting := [1]
  lhsNonContracting := [1]
  rhsNonContracting := [2]
  lhsBatch := [0]
  rhsBatch := [0]
  wf := dot_S3844x64x144_S3844x144x32_S3844x64x32_2_1_1_2_0_0_wf

class Facts : Prop extends Facts₀ where

variable [Facts]
-- ==== Proof.Body.lean ====
/-
  The kernel body as a pure function of its two input blocks.

  At every grid point the body loads three consecutive rows of the resident input (the rows its output row's 3×3 windows
  touch), cuts them into nine [62, 64, 16] slabs — one per window offset (kh, kw) — and stores slab number kh·3 + kw into
  lanes [16·(kh·3 + kw), 16·(kh·3 + kw) + 16) of the patch scratch; the nine slabs tile the scratch, so the whole-scratch
  load that follows reads them back, whatever the scratch held before. The one store to the output block is then the
  batched product of the re-laid weight block with that patch array. Here: the output block the frame run names
  (`Gen.out0_A_2`) IS that function of the two blocks.
-/
import proofs.«131308_j87076166959108_2_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

/-- The three input rows a grid point loads: rows `i`, `i + 1`, `i + 2` of the resident input. -/
def window (i : grid0.Coords) (x0 : Vec F S64x64x1024 .bf16) : Vec F S3x64x1024 .bf16 :=
  View.ld x0 (Rect.unit (s := S64x64x1024) (k0_off1 i) S3x64x1024.size (k0_off1_inb i))

/-- The nine slabs the body stores into the patch scratch, last store first: the slab of window offset (kh, kw) at
    lanes [16·(kh·3 + kw), +16). -/
def slabs (v2 : Vec F S3x64x1024 .bf16) : List (View.Piece (Elt F) S62x64x144 .bf16) :=
  [
    ⟨Rect.unit ![0, 0, 128] S62x64x16.size inb_S62x64x144_S62x64x16_0_0_128, k0_pay13 (k0_pay1 v2)⟩,
    ⟨Rect.unit ![0, 0, 112] S62x64x16.size inb_S62x64x144_S62x64x16_0_0_112, k0_pay12 (k0_pay1 v2)⟩,
    ⟨Rect.unit ![0, 0, 96] S62x64x16.size inb_S62x64x144_S62x64x16_0_0_96, k0_pay11 (k0_pay1 v2)⟩,
    ⟨Rect.unit ![0, 0, 80] S62x64x16.size inb_S62x64x144_S62x64x16_0_0_80, k0_pay9 (k0_pay6 v2)⟩,
    ⟨Rect.unit ![0, 0, 64] S62x64x16.size inb_S62x64x144_S62x64x16_0_0_64, k0_pay8 v2⟩,
    ⟨Rect.unit ![0, 0, 48] S62x64x16.size inb_S62x64x144_S62x64x16_0_0_48, k0_pay7 v2⟩,
    ⟨Rect.unit ![0, 0, 32] S62x64x16.size inb_S62x64x144_S62x64x16_0_0_32, k0_pay5 v2⟩,
    ⟨Rect.unit ![0, 0, 16] S62x64x16.size inb_S62x64x144_S62x64x16_0_0_16, k0_pay4 v2⟩,
    ⟨Rect.unit ![0, 0, 0] S62x64x16.size inb_S62x64x144_S62x64x16_0_0_0, k0_pay3 v2⟩ ]

/-- The patch array the matmul reads: the nine slabs read back as one array. -/
def patches (v2 : Vec F S3x64x1024 .bf16) : Vec F S62x64x144 .bf16 := View.canon (slabs v2)

/-- The nine slabs tile the scratch: every scratch index lies in one of them. -/
theorem slabs_cover (v2 : Vec F S3x64x1024 .bf16) (y : S62x64x144.Idx) : ∃ p ∈ slabs v2, y ∈ p.1.set :=
  View.cover_of_tiledL (slabs v2) S62x64x16.size (by sl_kernel_rfl) y

/-- THE BODY'S VALUE: what a grid point leaves in its output block is the product payload of the weight block and
    the patches of the three loaded rows. -/
theorem out_eq (c : Dev nD) (i : grid0.Coords) (arg1 : Memref sig .tc .vmem S64x64x1024 .bf16) (harg1 : arg1.IsWhole)
    (arg2 : Memref sig .tc .vmem S62x144x32 .f32) (harg2 : arg2.IsWhole) (arg3 : Memref sig .tc .vmem S1x62x2048 .f32) (harg3 : arg3.IsWhole)
    (arg4 : Memref sig .tc .vmem S62x64x144 .bf16) (harg4 : arg4.IsWhole)
    (x0 : Vec F S64x64x1024 .bf16) (x1 : Vec F S62x144x32 .f32) :
    out0_A_2 c i arg1 harg1 arg2 harg2 arg3 harg3 arg4 harg4 x0 x1 = k0_pay14 x1 (patches (window i x0)) := by
  have hz : (![0, 0, 0] : Fin 3 → Nat) = fun _ => 0 := by funext a; fin_cases a <;> rfl
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero hz]
  simp only [View.readAt_eq_ld, harg1.read_unread, harg2.read_unread, View.ld_unit_zero (S := S62x144x32) hz]
  refine congrArg (k0_pay14 x1) ?_
  exact (View.readCov_eq_canon_ld arg4.view (slabs (window i x0)) _ (slabs_cover _)).trans (View.ld_unit_zero hz _ _)

end Cert.KernelIdeal.Body

end
-- ==== Proof.ConvSpec.lean ====
/-
  The specification: the unshared ("locally connected") 3×3 convolution as ONE function of the two argument arrays,
  index by index on the extended reals.

  For an input `x : [64, 16, 64, 64]` (batch, channel, row, column) and per-position weights `w : [3844, 144, 32]`
  (position `p = oh·62 + ow`, feature, output channel) the result at `(b, o, oh, ow)` is

      ∑ over the 144 features of  x[b, c, oh + kh, ow + kw] · w[oh·62 + ow, feature, o],

  a feature being a triple (c, kh, kw) of a channel below 16 and two window offsets below 3.  The reference numbers the
  features `f = c·9 + kh·3 + kw` (channel slowest) and multiplies input by weight; the kernel numbers them
  `g = (kh·3 + kw)·16 + c` (channel fastest) and multiplies weight by input.  The two sums have the same 144 terms:
  `g ↦ (g mod 16)·9 + g div 16` is a bijection of the features, and the product of two extended reals commutes — no
  finiteness is needed anywhere.
-/
import Idealize.ShloMosaic.PureOps.Ideal
import Idealize.ShloMosaic.Lib.ValueIdx

noncomputable section

open scoped BigOperators

namespace Cert.ConvSpec

open Idealize.ShloMosaic Idealize.ShloMosaic.ValueIdx

/-- The input array's index type, the weights' and the result's. -/
abbrev XIdx := (⟨4, ![64, 16, 64, 64]⟩ : Shape).Idx
abbrev WIdx := (⟨3, ![3844, 144, 32]⟩ : Shape).Idx
abbrev OIdx := (⟨4, ![64, 32, 62, 62]⟩ : Shape).Idx

/-- The input element feature `f = c·9 + kh·3 + kw` reads at output position `(oh, ow)` of batch entry `b`:
    channel `f div 9`, row `oh + (f mod 9) div 3`, column `ow + f mod 3`. -/
def xAt (b : Fin 64) (oh ow : Fin 62) (f : Fin 144) : XIdx :=
  ix4 b (⟨f.val / 9, by have := f.isLt; omega⟩ : Fin 16)
    (⟨oh.val + f.val % 9 / 3, by have := oh.isLt; have := f.isLt; omega⟩ : Fin 64)
    (⟨ow.val + f.val % 3, by have := ow.isLt; omega⟩ : Fin 64)

/-- The weight of feature `f` for output channel `o` at position `(oh, ow)`. -/
def wAt (o : Fin 32) (oh ow : Fin 62) (f : Fin 144) : WIdx :=
  ix3 (⟨oh.val * 62 + ow.val, by have := oh.isLt; have := ow.isLt; omega⟩ : Fin 3844) f o

/-- The convolution at explicit coordinates, features in the reference's order, input times weight. -/
def convAt (x : XIdx → EReal) (w : WIdx → EReal) (b : Fin 64) (o : Fin 32) (oh ow : Fin 62) : EReal :=
  ∑ f : Fin 144, x (xAt b oh ow f) * w (wAt o oh ow f)

/-- The convolution as one function of the two argument arrays. -/
def conv (x : XIdx → EReal) (w : WIdx → EReal) : OIdx → EReal :=
  fun i => convAt x w (i 0) (i 1) (i 2) (i 3)

theorem conv_ix4 (x : XIdx → EReal) (w : WIdx → EReal) (b : Fin 64) (o : Fin 32) (oh ow : Fin 62) :
    conv x w (ix4 b o oh ow) = convAt x w b o oh ow := rfl

/-- The feature the kernel numbers `g = (kh·3 + kw)·16 + c`, in the reference's numbering `c·9 + kh·3 + kw`. -/
def refFeature (g : Fin 144) : Fin 144 := ⟨g.val % 16 * 9 + g.val / 16, by have := g.isLt; omega⟩

/-- Renumbering the features is a bijection: its inverse sends `f` to `(f mod 9)·16 + f div 9`. -/
def featurePerm : Fin 144 ≃ Fin 144 where
  toFun := refFeature
  invFun f := ⟨f.val % 9 * 16 + f.val / 9, by have := f.isLt; omega⟩
  left_inv g := Fin.ext (by show (g.val % 16 * 9 + g.val / 16) % 9 * 16 + (g.val % 16 * 9 + g.val / 16) / 9 = g.val
                            have := g.isLt; omega)
  right_inv f := Fin.ext (by show (f.val % 9 * 16 + f.val / 9) % 16 * 9 + (f.val % 9 * 16 + f.val / 9) / 16 = f.val
                             have := f.isLt; omega)

/-- THE LAW joining the two sides: the kernel's sum — features channel-fastest, weight times input — is the
    convolution. Reindex by `featurePerm` and commute each product. -/
theorem kernel_order (x : XIdx → EReal) (w : WIdx → EReal) (b : Fin 64) (o : Fin 32) (oh ow : Fin 62) :
    (∑ g : Fin 144, w (wAt o oh ow (refFeature g)) * x (xAt b oh ow (refFeature g))) = convAt x w b o oh ow := by
  unfold convAt
  rw [← Equiv.sum_comp featurePerm (fun f => x (xAt b oh ow f) * w (wAt o oh ow f))]
  exact Finset.sum_congr rfl fun g _ => mul_comm _ _

/-- The input element the kernel's feature `g` reads, in coordinates: channel `g mod 16`, window offsets
    `(g div 16) div 3` and `(g div 16) mod 3`. -/
theorem xAt_refFeature (b : Fin 64) (oh ow : Fin 62) (g : Fin 144) :
    xAt b oh ow (refFeature g)
      = ix4 b (⟨g.val % 16, Nat.mod_lt _ (by decide)⟩ : Fin 16)
          (⟨oh.val + g.val / 16 / 3, by have := oh.isLt; have := g.isLt; omega⟩ : Fin 64)
          (⟨ow.val + g.val / 16 % 3, by have := ow.isLt; omega⟩ : Fin 64) := by
  have hg := g.isLt
  unfold xAt refFeature
  funext a
  match a with
  | ⟨0, _⟩ => rfl
  | ⟨1, _⟩ => exact Fin.ext (by show (g.val % 16 * 9 + g.val / 16) / 9 = g.val % 16; omega)
  | ⟨2, _⟩ => exact Fin.ext (by show oh.val + (g.val % 16 * 9 + g.val / 16) % 9 / 3 = oh.val + g.val / 16 / 3; omega)
  | ⟨3, _⟩ => exact Fin.ext (by show ow.val + (g.val % 16 * 9 + g.val / 16) % 3 = ow.val + g.val / 16 % 3; omega)

end Cert.ConvSpec

end
-- ==== Proof.LibBatchedMatmulNT.lean ====
/-
  A batched `tpu.matmul` contracting the LAST axis of both operands, read at an entry, at the ideal instance.

  For a left operand a : [P, M, K] and a right operand b : [P, N, K] — axis 0 of both the batch axis, axis 2 of both
  contracted, so per batch entry p the product is a(p)·b(p)ᵀ (einsum 'pmk,pnk->pmn') — into the zero accumulator,
  entry (p, y, j) of the result is the plain sum over k : Fin K of a(p, y, k) · b(p, j, k) on the extended reals.
  The dot record's operand coordinates are taken as six hypotheses, each one line on a concrete record
  (`unfold DotDims.lhsIdx; rw [dif_pos/dif_neg (by decide) …]; rfl`, and `DotDims.lhsIdx_val_of_single rfl` /
  `rhsIdx_val_of_single rfl` for the contracted axis); the extents are generic.
-/
import Idealize.ShloMosaic.PureOps.Ideal.Laws
import Idealize.ShloMosaic.Lib.ValueIdx

noncomputable section

open scoped BigOperators

namespace Cert.LibBatchedMatmulNT

open Idealize.ShloMosaic Idealize.ShloMosaic.ValueIdx

/-- Entry (p, y, j) of the batched product a·bᵀ into the zero accumulator is ∑ₖ a(p, y, k) · b(p, j, k): the
    contraction index of a one-axis contraction is its one coordinate, and the six coordinate facts name the two
    operand indices. -/
theorem batched_matmul_nt_apply {P M K N : Nat} {φ₁ φ₂ : FTy}
    (D : DotDims (⟨3, ![P, M, K]⟩ : Shape) (⟨3, ![P, N, K]⟩ : Shape) (⟨3, ![P, M, N]⟩ : Shape))
    (hr : D.contr.rank = 1) (hs : D.contr.size ⟨0, by omega⟩ = K)
    (hl0 : ∀ (j : (⟨3, ![P, M, N]⟩ : Shape).Idx) (q : D.contr.Idx), (D.lhsIdx j q 0).val = (j 0).val)
    (hl1 : ∀ (j : (⟨3, ![P, M, N]⟩ : Shape).Idx) (q : D.contr.Idx), (D.lhsIdx j q 1).val = (j 1).val)
    (hl2 : ∀ (j : (⟨3, ![P, M, N]⟩ : Shape).Idx) (q : D.contr.Idx), (D.lhsIdx j q 2).val = (q ⟨0, by omega⟩).val)
    (hr0 : ∀ (j : (⟨3, ![P, M, N]⟩ : Shape).Idx) (q : D.contr.Idx), (D.rhsIdx j q 0).val = (j 0).val)
    (hr1 : ∀ (j : (⟨3, ![P, M, N]⟩ : Shape).Idx) (q : D.contr.Idx), (D.rhsIdx j q 1).val = (j 2).val)
    (hr2 : ∀ (j : (⟨3, ![P, M, N]⟩ : Shape).Idx) (q : D.contr.Idx), (D.rhsIdx j q 2).val = (q ⟨0, by omega⟩).val)
    (prec : Option ContractPrecision)
    (A : FVec Ideal (⟨3, ![P, M, K]⟩ : Shape) φ₁) (B : FVec Ideal (⟨3, ![P, N, K]⟩ : Shape) φ₂)
    (p : Fin P) (y : Fin M) (j : Fin N) :
    matmul D prec A B (constant (F := Ideal) (⟨3, ![P, M, N]⟩ : Shape) .f32 0x00000000#32) (ix3 p y j)
      = ∑ k : Fin K, A (ix3 p y k) * B (ix3 p j k) := by
  refine (Ideal.matmul_constant_zero_apply D prec A B (ix3 p y j)).trans ?_
  rw [← Equiv.sum_comp (contrEquiv1 D K hr hs).symm]
  refine Finset.sum_congr rfl fun k _ => ?_
  have hk := contrEquiv1_symm_val D K hr hs k
  have el : D.lhsIdx (ix3 p y j) ((contrEquiv1 D K hr hs).symm k) = ix3 p y k := funext fun a => Fin.ext (by
    match a with
    | ⟨0, _⟩ => exact hl0 _ _
    | ⟨1, _⟩ => exact hl1 _ _
    | ⟨2, _⟩ => exact (hl2 _ _).trans hk)
  have er : D.rhsIdx (ix3 p y j) ((contrEquiv1 D K hr hs).symm k) = ix3 p j k := funext fun a => Fin.ext (by
    match a with
    | ⟨0, _⟩ => exact hr0 _ _
    | ⟨1, _⟩ => exact hr1 _ _
    | ⟨2, _⟩ => exact (hr2 _ _).trans hk)
  rw [el, er]

end Cert.LibBatchedMatmulNT

end
-- ==== Proof.BodyValue.lean ====
/-
  The body's output block read at an index, at the ideal instance.

  Patch entry (ow, b, g) — output column ow, batch entry b, feature g = (kh·3 + kw)·16 + c — is the loaded window's element
  at row kh, column ow + kw, lane b·16 + c: slab kh·3 + kw is rows/columns shifted by (kh, kw), and its 16 lanes per batch
  entry are the channels. The re-laid weight block at (ow, o, g) is the weight block at (ow, c·9 + kh·3 + kw, o).
  The batched matmul into the zero accumulator contracts the 144 features, so the output block at
  (0, ow, o·64 + b) is the sum over g of weight times window element.
-/
import proofs.«131308_j87076166959108_2_alg».proof.Proof.Body
import proofs.«131308_j87076166959108_2_alg».proof.Proof.ConvSpec
import proofs.«131308_j87076166959108_2_alg».proof.Proof.LibBatchedMatmulNT
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.BodyValue

open Idealize.ShloMosaic Idealize.ShloMosaic.TcCoe Idealize.SL.Sem
open Idealize.ShloMosaic.ValueIdx
open Cert.KernelIdeal Cert.KernelIdeal.Gen Cert.KernelIdeal.Body Cert.ConvSpec

/-! ## The three loaded rows -/

/-- Row kh of the loaded window is row `i + kh` of the resident input. -/
theorem window_apply (i : grid0.Coords) (x0 : Vec Ideal S64x64x1024 .bf16) (kh : Fin 3) (w : Fin 64) (l : Fin 1024)
    (hi : (i 0).val + kh.val < 64) :
    window i x0 (ix3 kh w l) = x0 (ix3 (⟨(i 0).val + kh.val, hi⟩ : Fin 64) w l) := by
  unfold window
  refine congrArg x0 (funext fun a => Fin.ext ?_)
  show (k0_off1 i) a + 1 * ((ix3 kh w l : S3x64x1024.Idx) a).val
    = ((ix3 (⟨(i 0).val + kh.val, hi⟩ : Fin 64) w l : S64x64x1024.Idx) a).val
  rw [k0_off1_eq i]
  match a with
  | ⟨0, _⟩ => show (i 0).val + 1 * kh.val = (i 0).val + kh.val; omega
  | ⟨1, _⟩ => show 0 + 1 * w.val = w.val; omega
  | ⟨2, _⟩ => show 0 + 1 * l.val = l.val; omega

/-! ## The nine slabs as one function -/

/-- The window element patch entry (a, b, g) holds, from the entry's coordinates as numbers: row (g div 16) div 3,
    column a + (g div 16) mod 3, lane b·16 + g mod 16. -/
def patchSrc (a b g : Nat) (ha : a < 62) (hb : b < 64) (hg : g < 144) : S3x64x1024.Idx :=
  ix3 (⟨g / 16 / 3, by omega⟩ : Fin 3) (⟨a + g / 16 % 3, by omega⟩ : Fin 64) (⟨b * 16 + g % 16, by omega⟩ : Fin 1024)

/-- The slab of window offset (kh, kw) at (p, q, r): the window at row kh, column p + kw, lane q·16 + r. The slab is cut
    out by two unit-stride slices (a row, then 62 of its 64 columns) and re-laid by casts that keep the row-major
    position. -/
theorem slab_read (v2 : Vec Ideal S3x64x1024 .bf16) (kh kw : Nat) (hkh : kh < 3) (hkw : kw < 3)
    (h1 : S3x64x1024.Slices ![kh, 0, 0] S1x64x1024) (h2 : S1x64x1024.Slices ![0, kw, 0] S1x62x1024)
    (p : Fin 62) (q : Fin 64) (r : Fin 16) :
    shapeCast S62x64x16 (shapeCast S62x64x16 (shapeCast S1x62x64x16
        (extractStridedSlice S1x62x1024 ![0, kw, 0] (extractStridedSlice S1x64x1024 ![kh, 0, 0]
          (shapeCast S3x64x1024 v2 shapeCasts_S3x64x1024_S3x64x1024) h1) h2)
        shapeCasts_S1x62x1024_S1x62x64x16) shapeCasts_S1x62x64x16_S62x64x16) shapeCasts_S62x64x16_S62x64x16 (ix3 p q r)
      = v2 (ix3 (⟨kh, hkh⟩ : Fin 3) (⟨p.val + kw, by have := p.isLt; omega⟩ : Fin 64)
          (⟨q.val * 16 + r.val, by have := q.isLt; have := r.isLt; omega⟩ : Fin 1024)) := by
  have hp := p.isLt; have hq := q.isLt; have hr := r.isLt
  rw [shapeCast_self]
  refine (shapeCast_apply _ shapeCasts_S1x62x64x16_S62x64x16 (ix3 p q r) (ix4 (0 : Fin 1) p q r) ?_).trans ?_
  · rw [Shape.rowMajor_val_four, Shape.rowMajor_val_three]
    show ((0 * 62 + p.val) * 64 + q.val) * 16 + r.val = (p.val * 64 + q.val) * 16 + r.val
    omega
  refine (shapeCast_apply _ shapeCasts_S1x62x1024_S1x62x64x16 (ix4 (0 : Fin 1) p q r)
    (ix3 (0 : Fin 1) p (⟨q.val * 16 + r.val, by omega⟩ : Fin 1024)) ?_).trans ?_
  · rw [Shape.rowMajor_val_four, Shape.rowMajor_val_three]
    show (0 * 62 + p.val) * 1024 + (q.val * 16 + r.val) = ((0 * 62 + p.val) * 64 + q.val) * 16 + r.val
    omega
  refine (extractStridedSlice_apply ![0, kw, 0] _ h2 (ix3 (0 : Fin 1) p (⟨q.val * 16 + r.val, by omega⟩ : Fin 1024))
    (ix3 (0 : Fin 1) (⟨p.val + kw, by omega⟩ : Fin 64) (⟨q.val * 16 + r.val, by omega⟩ : Fin 1024)) (fun a => match a with
      | ⟨0, _⟩ => rfl
      | ⟨1, _⟩ => by show p.val + kw = kw + p.val; omega
      | ⟨2, _⟩ => by show q.val * 16 + r.val = 0 + (q.val * 16 + r.val); omega)).trans ?_
  refine (extractStridedSlice_apply ![kh, 0, 0] _ h1 (ix3 (0 : Fin 1) (⟨p.val + kw, by omega⟩ : Fin 64) (⟨q.val * 16 + r.val, by omega⟩ : Fin 1024))
    (ix3 (⟨kh, hkh⟩ : Fin 3) (⟨p.val + kw, by omega⟩ : Fin 64) (⟨q.val * 16 + r.val, by omega⟩ : Fin 1024)) (fun a => match a with
      | ⟨0, _⟩ => by show kh = kh + 0; omega
      | ⟨1, _⟩ => by show p.val + kw = 0 + (p.val + kw); omega
      | ⟨2, _⟩ => by show q.val * 16 + r.val = 0 + (q.val * 16 + r.val); omega)).trans ?_
  rw [shapeCast_self]

/-- A slab stored at lanes [n, n + 16), n = 16·(kh·3 + kw), whose entries are the window's at offset (kh, kw), is the
    restriction to its rectangle of the one function `patchSrc` of the scratch index. -/
theorem piece_ok (v2 : Vec Ideal S3x64x1024 .bf16) (n kh kw : Nat) (hkh : kh < 3) (hkw : kw < 3) (hn : n = 16 * (kh * 3 + kw))
    (inb : ∀ a, (![0, 0, n] : Fin 3 → Nat) a + S62x64x16.size a ≤ S62x64x144.size a)
    (pay : S62x64x16.Idx → EReal)
    (hpay : ∀ (p : Fin 62) (q : Fin 64) (r : Fin 16), pay (ix3 p q r)
      = v2 (ix3 (⟨kh, hkh⟩ : Fin 3) (⟨p.val + kw, by have := p.isLt; omega⟩ : Fin 64)
          (⟨q.val * 16 + r.val, by have := q.isLt; have := r.isLt; omega⟩ : Fin 1024)))
    (x : S62x64x16.Idx) :
    pay x = (fun y : S62x64x144.Idx => v2 (patchSrc (y 0).val (y 1).val (y 2).val (y 0).isLt (y 1).isLt (y 2).isLt))
      ((Rect.unit (s := S62x64x144) ![0, 0, n] S62x64x16.size inb).emb x) := by
  obtain ⟨p, q, r, rfl⟩ : ∃ (p : Fin 62) (q : Fin 64) (r : Fin 16), x = ix3 p q r := ⟨x 0, x 1, x 2, eq_ix3 x⟩
  have hp := p.isLt; have hq := q.isLt; have hr := r.isLt
  rw [hpay]
  refine congrArg v2 (funext fun a => Fin.ext ?_)
  match a with
  | ⟨0, _⟩ => show kh = (n + 1 * r.val) / 16 / 3; omega
  | ⟨1, _⟩ => show p.val + kw = (0 + 1 * p.val) + (n + 1 * r.val) / 16 % 3; omega
  | ⟨2, _⟩ => show q.val * 16 + r.val = (0 + 1 * q.val) * 16 + (n + 1 * r.val) % 16; omega

/-- THE PATCH ARRAY AT AN INDEX: entry (ow, b, g) is the window at row (g div 16) div 3, column ow + (g div 16) mod 3,
    lane b·16 + g mod 16 — the nine slabs tile the scratch and each is a restriction of this one function. -/
theorem patches_apply (v2 : Vec Ideal S3x64x1024 .bf16) (ow : Fin 62) (b : Fin 64) (g : Fin 144) :
    patches v2 (ix3 ow b g) = v2 (patchSrc ow.val b.val g.val ow.isLt b.isLt g.isLt) := by
  unfold patches
  refine View.canon_apply_of_pieces
    (fun y : S62x64x144.Idx => v2 (patchSrc (y 0).val (y 1).val (y 2).val (y 0).isLt (y 1).isLt (y 2).isLt))
    (slabs v2) ?_ (ix3 ow b g) (slabs_cover v2 _)
  intro pc hpc
  simp only [slabs, List.mem_cons, List.mem_nil_iff, or_false] at hpc
  rcases hpc with rfl | rfl | rfl | rfl | rfl | rfl | rfl | rfl | rfl
  · refine piece_ok v2 128 2 2 (by decide) (by decide) (by decide) inb_S62x64x144_S62x64x16_0_0_128 _ ?_
    intro p q r
    exact slab_read v2 2 2 (by decide) (by decide) slices_S3x64x1024_o2_0_0_S1x64x1024 slices_S1x64x1024_o0_2_0_S1x62x1024 p q r
  · refine piece_ok v2 112 2 1 (by decide) (by decide) (by decide) inb_S62x64x144_S62x64x16_0_0_112 _ ?_
    intro p q r
    exact slab_read v2 2 1 (by decide) (by decide) slices_S3x64x1024_o2_0_0_S1x64x1024 slices_S1x64x1024_o0_1_0_S1x62x1024 p q r
  · refine piece_ok v2 96 2 0 (by decide) (by decide) (by decide) inb_S62x64x144_S62x64x16_0_0_96 _ ?_
    intro p q r
    exact slab_read v2 2 0 (by decide) (by decide) slices_S3x64x1024_o2_0_0_S1x64x1024 slices_S1x64x1024_o0_0_0_S1x62x1024 p q r
  · refine piece_ok v2 80 1 2 (by decide) (by decide) (by decide) inb_S62x64x144_S62x64x16_0_0_80 _ ?_
    intro p q r
    exact slab_read v2 1 2 (by decide) (by decide) slices_S3x64x1024_o1_0_0_S1x64x1024 slices_S1x64x1024_o0_2_0_S1x62x1024 p q r
  · refine piece_ok v2 64 1 1 (by decide) (by decide) (by decide) inb_S62x64x144_S62x64x16_0_0_64 _ ?_
    intro p q r
    exact slab_read v2 1 1 (by decide) (by decide) slices_S3x64x1024_o1_0_0_S1x64x1024 slices_S1x64x1024_o0_1_0_S1x62x1024 p q r
  · refine piece_ok v2 48 1 0 (by decide) (by decide) (by decide) inb_S62x64x144_S62x64x16_0_0_48 _ ?_
    intro p q r
    exact slab_read v2 1 0 (by decide) (by decide) slices_S3x64x1024_o1_0_0_S1x64x1024 slices_S1x64x1024_o0_0_0_S1x62x1024 p q r
  · refine piece_ok v2 32 0 2 (by decide) (by decide) (by decide) inb_S62x64x144_S62x64x16_0_0_32 _ ?_
    intro p q r
    exact slab_read v2 0 2 (by decide) (by decide) slices_S3x64x1024_o0_0_0_S1x64x1024 slices_S1x64x1024_o0_2_0_S1x62x1024 p q r
  · refine piece_ok v2 16 0 1 (by decide) (by decide) (by decide) inb_S62x64x144_S62x64x16_0_0_16 _ ?_
    intro p q r
    exact slab_read v2 0 1 (by decide) (by decide) slices_S3x64x1024_o0_0_0_S1x64x1024 slices_S1x64x1024_o0_1_0_S1x62x1024 p q r
  · refine piece_ok v2 0 0 0 (by decide) (by decide) (by decide) inb_S62x64x144_S62x64x16_0_0_0 _ ?_
    intro p q r
    exact slab_read v2 0 0 (by decide) (by decide) slices_S3x64x1024_o0_0_0_S1x64x1024 slices_S1x64x1024_o0_0_0_S1x62x1024 p q r

/-! ## The matmul -/

/-- The re-laid weights at (ow, o, g): the weight block at (ow, (g mod 16)·9 + g div 16, o) — the feature axis split
    into (channel, window offset), the two swapped with the output channel moved to the middle, and merged again. -/
theorem weights_apply (x1 : FVec Ideal S62x144x32 .f32) (ow : Fin 62) (o : Fin 32) (g : Fin 144) :
    (shapeCast S62x32x144 (transpose S62x32x9x16 [0, 3, 2, 1] (shapeCast S62x16x9x32 (truncf (F := Ideal) .bf16 x1 bitsLt_bf16_f32)
        shapeCasts_S62x144x32_S62x16x9x32) transposes_S62x16x9x32_p0_3_2_1_S62x32x9x16) shapeCasts_S62x32x9x16_S62x32x144 (ix3 ow o g) : EReal)
      = x1 (ix3 ow (refFeature g) o) := by
  have hg := g.isLt; have how := ow.isLt; have ho := o.isLt
  refine (shapeCast_apply _ shapeCasts_S62x32x9x16_S62x32x144 (ix3 ow o g)
    (ix4 ow o (⟨g.val / 16, by omega⟩ : Fin 9) (⟨g.val % 16, by omega⟩ : Fin 16)) ?_).trans ?_
  · rw [Shape.rowMajor_val_four, Shape.rowMajor_val_three]
    show ((ow.val * 32 + o.val) * 9 + g.val / 16) * 16 + g.val % 16 = (ow.val * 32 + o.val) * 144 + g.val
    omega
  refine (transpose_apply [0, 3, 2, 1] _ transposes_S62x16x9x32_p0_3_2_1_S62x32x9x16
    (ix4 ow o (⟨g.val / 16, by omega⟩ : Fin 9) (⟨g.val % 16, by omega⟩ : Fin 16))
    (ix4 ow (⟨g.val % 16, by omega⟩ : Fin 16) (⟨g.val / 16, by omega⟩ : Fin 9) o) (fun a => match a with
      | ⟨0, _⟩ => rfl
      | ⟨1, _⟩ => rfl
      | ⟨2, _⟩ => rfl
      | ⟨3, _⟩ => rfl)).trans ?_
  refine (shapeCast_apply _ shapeCasts_S62x144x32_S62x16x9x32
    (ix4 ow (⟨g.val % 16, by omega⟩ : Fin 16) (⟨g.val / 16, by omega⟩ : Fin 9) o) (ix3 ow (refFeature g) o) ?_).trans ?_
  · rw [Shape.rowMajor_val_four, Shape.rowMajor_val_three]
    show (ow.val * 144 + (g.val % 16 * 9 + g.val / 16)) * 32 + o.val = ((ow.val * 16 + g.val % 16) * 9 + g.val / 16) * 32 + o.val
    omega
  rfl

/-- The dot record's operand coordinates: output (batch ow, o, b), contraction q. -/
theorem lhs_0 (j : S62x32x64.Idx) (q : dot_S62x32x144_S62x64x144_S62x32x64_2_2_1_1_0_0.contr.Idx) : (dot_S62x32x144_S62x64x144_S62x32x64_2_2_1_1_0_0.lhsIdx j q 0).val = (j 0).val := by
  unfold DotDims.lhsIdx
  rw [dif_pos (show (0 : Fin S62x32x144.rank) ∈ dot_S62x32x144_S62x64x144_S62x32x64_2_2_1_1_0_0.lhsBatch by decide)]
  rfl
theorem lhs_1 (j : S62x32x64.Idx) (q : dot_S62x32x144_S62x64x144_S62x32x64_2_2_1_1_0_0.contr.Idx) : (dot_S62x32x144_S62x64x144_S62x32x64_2_2_1_1_0_0.lhsIdx j q 1).val = (j 1).val := by
  unfold DotDims.lhsIdx
  rw [dif_neg (show ¬(1 : Fin S62x32x144.rank) ∈ dot_S62x32x144_S62x64x144_S62x32x64_2_2_1_1_0_0.lhsBatch by decide),
    dif_pos (show (1 : Fin S62x32x144.rank) ∈ dot_S62x32x144_S62x64x144_S62x32x64_2_2_1_1_0_0.lhsNonContracting by decide)]
  rfl
theorem lhs_2 (j : S62x32x64.Idx) (q : dot_S62x32x144_S62x64x144_S62x32x64_2_2_1_1_0_0.contr.Idx) : (dot_S62x32x144_S62x64x144_S62x32x64_2_2_1_1_0_0.lhsIdx j q 2).val = (q ⟨0, by decide⟩).val :=
  dot_S62x32x144_S62x64x144_S62x32x64_2_2_1_1_0_0.lhsIdx_val_of_single rfl j q
theorem rhs_0 (j : S62x32x64.Idx) (q : dot_S62x32x144_S62x64x144_S62x32x64_2_2_1_1_0_0.contr.Idx) : (dot_S62x32x144_S62x64x144_S62x32x64_2_2_1_1_0_0.rhsIdx j q 0).val = (j 0).val := by
  unfold DotDims.rhsIdx
  rw [dif_pos (show (0 : Fin S62x64x144.rank) ∈ dot_S62x32x144_S62x64x144_S62x32x64_2_2_1_1_0_0.rhsBatch by decide)]
  rfl
theorem rhs_1 (j : S62x32x64.Idx) (q : dot_S62x32x144_S62x64x144_S62x32x64_2_2_1_1_0_0.contr.Idx) : (dot_S62x32x144_S62x64x144_S62x32x64_2_2_1_1_0_0.rhsIdx j q 1).val = (j 2).val := by
  unfold DotDims.rhsIdx
  rw [dif_neg (show ¬(1 : Fin S62x64x144.rank) ∈ dot_S62x32x144_S62x64x144_S62x32x64_2_2_1_1_0_0.rhsBatch by decide),
    dif_pos (show (1 : Fin S62x64x144.rank) ∈ dot_S62x32x144_S62x64x144_S62x32x64_2_2_1_1_0_0.rhsNonContracting by decide)]
  rfl
theorem rhs_2 (j : S62x32x64.Idx) (q : dot_S62x32x144_S62x64x144_S62x32x64_2_2_1_1_0_0.contr.Idx) : (dot_S62x32x144_S62x64x144_S62x32x64_2_2_1_1_0_0.rhsIdx j q 2).val = (q ⟨0, by decide⟩).val :=
  dot_S62x32x144_S62x64x144_S62x32x64_2_2_1_1_0_0.rhsIdx_val_of_single rfl j q

/-- The batched product into the zero accumulator at (ow, o, b): the sum over the 144 features of the left operand at
    (ow, o, g) times the right at (ow, b, g). -/
theorem matmul_apply3 (A : FVec Ideal S62x32x144 .bf16) (B : FVec Ideal S62x64x144 .bf16) (ow : Fin 62) (o : Fin 32) (b : Fin 64) :
    matmul dot_S62x32x144_S62x64x144_S62x32x64_2_2_1_1_0_0 none A B (constant (F := Ideal) S62x32x64 .f32 0x00000000#32) (ix3 ow o b)
      = ∑ g : Fin 144, A (ix3 ow o g) * B (ix3 ow b g) :=
  Cert.LibBatchedMatmulNT.batched_matmul_nt_apply dot_S62x32x144_S62x64x144_S62x32x64_2_2_1_1_0_0 rfl rfl lhs_0 lhs_1 lhs_2 rhs_0 rhs_1 rhs_2 none A B ow o b

/-- THE OUTPUT BLOCK AT AN INDEX: at (0, ow, o·64 + b) the sum over the features g of the weight block at
    (ow, feature g in the reference's numbering, o) times the patch entry (ow, b, g). -/
theorem pay_apply (x1 : FVec Ideal S62x144x32 .f32) (Pt : FVec Ideal S62x64x144 .bf16) (ow : Fin 62) (o : Fin 32) (b : Fin 64) :
    k0_pay14 (F := Ideal) x1 Pt (ix3 (0 : Fin 1) ow (⟨o.val * 64 + b.val, by have := o.isLt; have := b.isLt; omega⟩ : Fin 2048))
      = ∑ g : Fin 144, x1 (ix3 ow (refFeature g) o) * Pt (ix3 ow b g) := by
  have ho := o.isLt; have hb := b.isLt; have how := ow.isLt
  unfold k0_pay14
  dsimp only
  refine (shapeCast_apply _ shapeCasts_S62x32x64_S1x62x2048
    (ix3 (0 : Fin 1) ow (⟨o.val * 64 + b.val, by omega⟩ : Fin 2048)) (ix3 ow o b) ?_).trans ?_
  · rw [Shape.rowMajor_val_three, Shape.rowMajor_val_three]
    show (ow.val * 32 + o.val) * 64 + b.val = (0 * 62 + ow.val) * 2048 + (o.val * 64 + b.val)
    omega
  refine (matmul_apply3 _ Pt ow o b).trans ?_
  exact Finset.sum_congr rfl fun g _ => congrArg (· * Pt (ix3 ow b g)) (weights_apply x1 ow o g)

end Cert.KernelIdeal.BodyValue

end
-- ==== Proof.HostLayout.lean ====
/-
  The host operations around the region, read at an index (at the ideal instance).

  Before the region the input [64, 16, 64, 64] (batch, channel, row, column) is transposed to (row, column, batch,
  channel), its last two axes merged into one lane axis of 1024 = 64·16, and its float format changed (the identity on
  extended reals): the resident array at (h, w, l) is the input at (l div 16, l mod 16, h, w).
  After the region the result [62, 62, 2048] has its lane axis split into (output channel, batch) = (l div 64, l mod 64)
  and is transposed to (batch, output channel, row, column).
-/
import proofs.«131308_j87076166959108_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostLayout

open Idealize.ShloMosaic Idealize.ShloMosaic.TcCoe Idealize.SL.Sem Idealize.ShloMosaic.StableHlo
open Idealize.ShloMosaic.ValueIdx
open Cert.KernelIdeal Cert.KernelIdeal.Gen

/-- The host prefix as one function of the input array. -/
def resident (X : FVec Ideal S64x16x64x64 .f32) : FVec Ideal S64x64x1024 .bf16 :=
  truncf .bf16 (shapeCast S64x64x1024 (transpose S64x64x64x16 [2, 3, 0, 1] X transposes_S64x16x64x64_S64x64x64x16_2_3_0_1)
    shapeCasts_S64x64x64x16_S64x64x1024) bitsLt_bf16_f32

/-- The resident array at (h, w, l) is the input at (l div 16, l mod 16, h, w). -/
theorem resident_apply (X : FVec Ideal S64x16x64x64 .f32) (h w : Fin 64) (l : Fin 1024) :
    resident X (ix3 h w l)
      = X (ix4 (⟨l.val / 16, by have := l.isLt; omega⟩ : Fin 64) (⟨l.val % 16, Nat.mod_lt _ (by decide)⟩ : Fin 16) h w) := by
  unfold resident
  rw [truncf_apply]
  refine (shapeCast_apply _ shapeCasts_S64x64x64x16_S64x64x1024 (ix3 h w l)
    (ix4 h w (⟨l.val / 16, by have := l.isLt; omega⟩ : Fin 64) (⟨l.val % 16, Nat.mod_lt _ (by decide)⟩ : Fin 16)) ?_).trans ?_
  · rw [Shape.rowMajor_val_four, Shape.rowMajor_val_three]
    show ((h.val * 64 + w.val) * 64 + l.val / 16) * 16 + l.val % 16 = (h.val * 64 + w.val) * 1024 + l.val
    omega
  · exact transpose_apply [2, 3, 0, 1] X transposes_S64x16x64x64_S64x64x64x16_2_3_0_1 _ _ (fun b => match b with
      | ⟨0, _⟩ => rfl
      | ⟨1, _⟩ => rfl
      | ⟨2, _⟩ => rfl
      | ⟨3, _⟩ => rfl)

/-- The host tail as one function of the region's result array. -/
def relaid (Y : FVec Ideal S62x62x2048 .f32) : FVec Ideal S64x32x62x62 .f32 :=
  transpose S64x32x62x62 [3, 2, 0, 1] (shapeCast S62x62x32x64 Y shapeCasts_S62x62x2048_S62x62x32x64)
    transposes_S62x62x32x64_S64x32x62x62_3_2_0_1

/-- The final result at (b, o, oh, ow) is the region's result at (oh, ow, o·64 + b). -/
theorem relaid_apply (Y : FVec Ideal S62x62x2048 .f32) (b : Fin 64) (o : Fin 32) (oh ow : Fin 62) :
    relaid Y (ix4 b o oh ow) = Y (ix3 oh ow (⟨o.val * 64 + b.val, by have := o.isLt; have := b.isLt; omega⟩ : Fin 2048)) := by
  unfold relaid
  refine (transpose_apply [3, 2, 0, 1] _ transposes_S62x62x32x64_S64x32x62x62_3_2_0_1 (ix4 b o oh ow) (ix4 oh ow o b)
    (fun a => match a with
      | ⟨0, _⟩ => rfl
      | ⟨1, _⟩ => rfl
      | ⟨2, _⟩ => rfl
      | ⟨3, _⟩ => rfl)).trans ?_
  refine shapeCast_apply Y shapeCasts_S62x62x2048_S62x62x32x64 (ix4 oh ow o b) _ ?_
  rw [Shape.rowMajor_val_four, Shape.rowMajor_val_three]
  show (oh.val * 62 + ow.val) * 2048 + (o.val * 64 + b.val) = ((oh.val * 62 + ow.val) * 32 + o.val) * 64 + b.val
  omega

variable (m : (ℓ : Loc nD τ sig) → Buf (Elt Ideal) ℓ)

/-- What the region finds in the resident input's buffer: the host prefix of the launch-time input. -/
theorem V_resident (c : Dev nD) :
    (V (F := Ideal) m c main_v2 : S64x64x1024.Idx → EReal) = resident (m ((c : Thread nD τ).loc main_arg0)) := by
  show StableHlo.after hostOps0 (fun b => m (c, b)) (Proc.devRef .tc main_v2) = _
  after_results
  rfl

/-- The region's result array among the contents the region leaves: the pipeline's array number 2. -/
theorem tail_eq (c : Dev nD) :
    (Pipeline.afterTail₀ cfgs (dats m) 0 (V0 m) [hostOps1] c main_v5 : S64x32x62x62.Idx → EReal)
      = relaid ((dats m 0 c).arrAt 2 cfg0.N) := by
  have e := Pipeline.withArrays_arr spec0 launch0.win.arr_inj c (V0 m c) (fun w => (dats m 0 c).arrAt w cfg0.N) 2
  unfold Pipeline.afterTail₀
  show StableHlo.after hostOps1 _ (Proc.devRef .tc main_v5) = _
  after_results
  exact (show _ = relaid (Pipeline.withArrays spec0 c (V0 m c) (fun w => (dats m 0 c).arrAt w cfg0.N)
    (Proc.devRef .tc (Pipeline.arrRef spec0 2))) from rfl).trans (congrArg relaid e)

end Cert.KernelIdeal.HostLayout

end
-- ==== Proof.KernelValue.lean ====
/-
  The kernel's run read as values: the region's result array is one function of the two argument arrays, and the host
  tail re-lays it into the convolution.

  Grid point t stages the whole resident input, rows [62·t, 62·t + 62) of the weights (the positions of output row t) and
  writes back block t of the [62, 62, 2048] result (its row t). With the body's value (the sum over the features of weight
  times window element), the resident input read through the host prefix, and the law that reorders the features, point t
  writes at (t, ow, o·64 + b) the convolution at (b, o, t, ow). The 62 blocks tile the result array.
-/
import proofs.«131308_j87076166959108_2_alg».proof.Proof.BodyValue
import proofs.«131308_j87076166959108_2_alg».proof.Proof.HostLayout
import proofs.«131308_j87076166959108_2_alg».proof.Proof.ConvSpec

set_option maxRecDepth 16384

noncomputable section

open scoped BigOperators

namespace Cert.KernelIdeal.KValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Body Cert.KernelIdeal.BodyValue Cert.ConvSpec

/-! ## The region's result array as one function -/

/-- The region's result: at (oh, ow, l) the convolution at (batch l mod 64, output channel l div 64, oh, ow). -/
def regionOut (X : FVec Ideal S64x16x64x64 .f32) (W : FVec Ideal S3844x144x32 .f32) : FVec Ideal S62x62x2048 .f32 :=
  fun y => convAt X W (⟨(y 2).val % 64, Nat.mod_lt _ (by decide)⟩ : Fin 64)
    (⟨(y 2).val / 64, by have h : (y 2).val < 2048 := (y 2).isLt; omega⟩ : Fin 32) (y 0) (y 1)

theorem regionOut_apply (X : FVec Ideal S64x16x64x64 .f32) (W : FVec Ideal S3844x144x32 .f32) (oh ow : Fin 62) (o : Fin 32) (b : Fin 64) :
    regionOut X W (ix3 oh ow (⟨o.val * 64 + b.val, by have := o.isLt; have := b.isLt; omega⟩ : Fin 2048)) = convAt X W b o oh ow := by
  have ho := o.isLt; have hb := b.isLt
  have e1 : (⟨(o.val * 64 + b.val) % 64, Nat.mod_lt _ (by decide)⟩ : Fin 64) = b := Fin.ext (by show (o.val * 64 + b.val) % 64 = b.val; omega)
  have e2 : (⟨(o.val * 64 + b.val) / 64, by omega⟩ : Fin 32) = o := Fin.ext (by show (o.val * 64 + b.val) / 64 = o.val; omega)
  show convAt X W (⟨(o.val * 64 + b.val) % 64, Nat.mod_lt _ (by decide)⟩ : Fin 64) (⟨(o.val * 64 + b.val) / 64, by omega⟩ : Fin 32) oh ow = _
  rw [e1, e2]

/-- A lane o·64 + b of the result is below 2048. -/
theorem lane_lt (o : Fin 32) (b : Fin 64) : o.val * 64 + b.val < 2048 := by have := o.isLt; have := b.isLt; omega

/-! ## One grid point -/

/-- WHAT A GRID POINT COMPUTES, over any two blocks: if the first block is the resident input (the input at
    (l div 16, l mod 16, h, w)) and the second is rows [62·tv, 62·tv + 62) of the weights, the body's output block at
    (0, ow, l) is the region's result function at (tv, ow, l). -/
theorem point_value (i : grid0.Coords) (tv : Nat) (htv : tv < 62) (hi : (i 0).val = tv)
    (x0 : FVec Ideal S64x64x1024 .bf16) (x1 : FVec Ideal S62x144x32 .f32)
    (X : FVec Ideal S64x16x64x64 .f32) (W : FVec Ideal S3844x144x32 .f32)
    (h0 : ∀ (h w : Fin 64) (l : Fin 1024), x0 (ix3 h w l)
      = X (ix4 (⟨l.val / 16, by have := l.isLt; omega⟩ : Fin 64) (⟨l.val % 16, Nat.mod_lt _ (by decide)⟩ : Fin 16) h w))
    (h1 : ∀ (p : Fin 62) (f : Fin 144) (o : Fin 32), x1 (ix3 p f o)
      = W (ix3 (⟨tv * 62 + p.val, by have := p.isLt; omega⟩ : Fin 3844) f o))
    (ow : Fin 62) (l : Fin 2048) :
    k0_pay14 (F := Ideal) x1 (patches (window i x0)) (ix3 (0 : Fin 1) ow l) = regionOut X W (ix3 (⟨tv, htv⟩ : Fin 62) ow l) := by
  obtain ⟨o, b, rfl⟩ : ∃ (o : Fin 32) (b : Fin 64), l = (⟨o.val * 64 + b.val, lane_lt o b⟩ : Fin 2048) :=
    ⟨⟨l.val / 64, by have := l.isLt; omega⟩, ⟨l.val % 64, Nat.mod_lt _ (by decide)⟩,
      Fin.ext (by show l.val = l.val / 64 * 64 + l.val % 64; omega)⟩
  have ho := o.isLt; have hb := b.isLt; have how := ow.isLt
  rw [regionOut_apply, pay_apply, ← kernel_order]
  refine Finset.sum_congr rfl fun g _ => ?_
  have hg := g.isLt
  have ew : x1 (ix3 ow (refFeature g) o) = W (wAt o (⟨tv, htv⟩ : Fin 62) ow (refFeature g)) := h1 ow (refFeature g) o
  have ex : (patches (F := Ideal) (window i x0) (ix3 ow b g) : EReal) = X (xAt b (⟨tv, htv⟩ : Fin 62) ow (refFeature g)) := by
    rw [patches_apply, xAt_refFeature]
    show (window (F := Ideal) i x0 (ix3 (⟨g.val / 16 / 3, by omega⟩ : Fin 3) (⟨ow.val + g.val / 16 % 3, by omega⟩ : Fin 64)
      (⟨b.val * 16 + g.val % 16, by omega⟩ : Fin 1024)) : EReal) = _
    rw [window_apply i x0 _ _ _ (by show (i 0).val + g.val / 16 / 3 < 64; omega), h0]
    refine congrArg X (funext fun a => Fin.ext ?_)
    match a with
    | ⟨0, _⟩ => show (b.val * 16 + g.val % 16) / 16 = b.val; omega
    | ⟨1, _⟩ => show (b.val * 16 + g.val % 16) % 16 = g.val % 16; omega
    | ⟨2, _⟩ => show (i 0).val + g.val / 16 / 3 = tv + g.val / 16 / 3; omega
    | ⟨3, _⟩ => rfl
  rw [ew, ex]

/-! ## The blocks the pipeline stages -/

variable (m : (ℓ : Loc nD τ sig) → Buf (Elt Ideal) ℓ) (ρ : Dev nD → PrngReg)

/-- The printed index maps over the grid: the point's coordinate is its number; the resident input's block index is
    always 0; the weights' and the result's block index on axis 0 is the point's number. -/
theorem grid_facts : ∀ t : Fin cfg0.N, (grid0.coords t 0).val = t.val
    ∧ win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 62 := lt_of_lt_of_eq t.isLt N_0

/-- The resident input's block at any point is the host prefix of the launch-time input. -/
theorem iblk0_apply (c : Dev nD) (t : Fin cfg0.N) (h w : Fin 64) (l : Fin 1024) :
    (iblk m c 0 t : S64x64x1024.Idx → EReal) (ix3 h w l) = HostLayout.resident (m ((c : Thread nD τ).loc main_arg0)) (ix3 h w l) := by
  obtain ⟨-, e0, e1, e2, -⟩ := grid_facts t
  rw [← HostLayout.V_resident m c]
  show V m c main_v2 (((cfg0.win 0).blk t).view.emb (ix3 h w l)) = V m c main_v2 (ix3 h w l)
  refine congrArg _ (funext fun a => Fin.ext ?_)
  match a with
  | ⟨0, _⟩ => show win0_0.index t (0 : Fin 3) * 64 + 1 * h.val = h.val; omega
  | ⟨1, _⟩ => show win0_0.index t (1 : Fin 3) * 64 + 1 * w.val = w.val; omega
  | ⟨2, _⟩ => show win0_0.index t (2 : Fin 3) * 1024 + 1 * l.val = l.val; omega

/-- The weights' block at point t is rows [62·t, 62·t + 62) of the launch-time weights. -/
theorem iblk1_apply (c : Dev nD) (t : Fin cfg0.N) (p : Fin 62) (f : Fin 144) (o : Fin 32) :
    (iblk m c 1 t : S62x144x32.Idx → EReal) (ix3 p f o)
      = m ((c : Thread nD τ).loc main_arg1) (ix3 (⟨t.val * 62 + p.val, by have := point_lt t; have := p.isLt; omega⟩ : Fin 3844) f o) := by
  obtain ⟨-, -, -, -, e0, e1, e2, -⟩ := grid_facts t
  rw [← V_main_arg1 m c]
  show V m c main_arg1 (((cfg0.win 1).blk t).view.emb (ix3 p f o))
    = V m c main_arg1 (ix3 (⟨t.val * 62 + p.val, by have := point_lt t; have := p.isLt; omega⟩ : Fin 3844) f o)
  refine congrArg _ (funext fun a => Fin.ext ?_)
  match a with
  | ⟨0, _⟩ => show win0_1.index t (0 : Fin 3) * 62 + 1 * p.val = t.val * 62 + p.val; omega
  | ⟨1, _⟩ => show win0_1.index t (1 : Fin 3) * 144 + 1 * f.val = f.val; omega
  | ⟨2, _⟩ => show win0_1.index t (2 : Fin 3) * 32 + 1 * o.val = o.val; omega

/-- What the body leaves at point t: its value on the point's two input blocks. -/
theorem outsAt_eq (c : Dev nD) (t : Fin cfg0.N) :
    outsAt0 m c t = k0_pay14 (iblk m c 1 t) (patches (window (grid0.coords t) (iblk m c 0 t))) :=
  Body.out_eq c (grid0.coords t) (ms0_0 t) (hs0_0 t) (ms0_1 t) (hs0_1 t) (ms0_2 t) (hs0_2 t) scM0_0 (Memref.isWhole_whole _)
    (iblk m c 0 t) (iblk m c 1 t)

/-! ## From blocks to the array -/

/-- WHAT POINT t WRITES BACK is block t of the region's result function of the launch-time arguments. -/
theorem flushed_eq (c : Dev nD) (t : Fin cfg0.N) :
    (dats m 0 c).flushed 2 t = ((cfg0.win 2).blk t).view.read (Elt Ideal)
      (regionOut (m ((c : Thread nD τ).loc main_arg0)) (m ((c : Thread nD τ).loc main_arg1))) := by
  show (cfg0.win 2).cut (grid0.coords t) ((dats m 0 c).after 2 t) = _
  rw [after0_2, outsAt_eq]
  obtain ⟨g0, -, -, -, -, -, -, e0, e1, e2⟩ := grid_facts t
  have ht := point_lt t
  funext j
  obtain ⟨z, ow, l, rfl⟩ : ∃ (z : Fin 1) (ow : Fin 62) (l : Fin 2048), j = ix3 z ow l := ⟨j 0, j 1, j 2, eq_ix3 j⟩
  obtain rfl : z = 0 := Subsingleton.elim _ _
  refine (point_value (grid0.coords t) t.val ht g0 (iblk m c 0 t) (iblk m c 1 t)
    (m ((c : Thread nD τ).loc main_arg0)) (m ((c : Thread nD τ).loc main_arg1))
    (fun h w l => (iblk0_apply m c t h w l).trans (HostLayout.resident_apply _ h w l))
    (fun p f o => iblk1_apply m c t p f o) ow l).trans ?_
  show regionOut _ _ (ix3 (⟨t.val, ht⟩ : Fin 62) ow l) = regionOut _ _ (((cfg0.win 2).blk t).view.emb (ix3 (0 : Fin 1) ow l))
  refine congrArg _ (funext fun a => Fin.ext ?_)
  match a with
  | ⟨0, _⟩ => show t.val = win0_2.index t (0 : Fin 3) * 1 + 1 * 0; omega
  | ⟨1, _⟩ => show ow.val = win0_2.index t (1 : Fin 3) * 62 + 1 * ow.val; omega
  | ⟨2, _⟩ => show l.val = win0_2.index t (2 : Fin 3) * 2048 + 1 * l.val; omega

/-- An index of the result array is in point t's block iff each coordinate is in the block's range on its axis. -/
theorem mem_blk (t : Fin cfg0.N) (i : S62x62x2048.Idx) :
    i ∈ ((cfg0.win 2).blk t).view.set ↔ ∀ a : Fin 3, win0_2.index t a * S1x62x2048.size a ≤ (i a).val
      ∧ (i a).val < win0_2.index t a * S1x62x2048.size a + S1x62x2048.size a := by
  show i ∈ ((View.whole main_v3).slice (win0_2.rect t)).set ↔ _
  rw [View.set_slice_whole, Rect.mem_set_unit]
  exact Iff.rfl

/-- The 62 blocks tile the result array: index (oh, ow, l) is in the block of point oh. -/
theorem cover (i : S62x62x2048.Idx) :
    ∃ t : Fin cfg0.N, (cfg0.win 2).flush t = true ∧ i ∈ ((cfg0.win 2).blk t).view.set := by
  have h0 : (i 0).val < 62 := (i 0).isLt
  have h1 : (i 1).val < 62 := (i 1).isLt
  have h2 : (i 2).val < 2048 := (i 2).isLt
  obtain ⟨t, ht⟩ : ∃ t : Fin cfg0.N, t.val = (i 0).val := ⟨⟨(i 0).val, lt_of_lt_of_eq h0 N_0.symm⟩, rfl⟩
  obtain ⟨-, -, -, -, -, -, -, e0, e1, e2⟩ := grid_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 62 ≤ (i 1).val ∧ (i 1).val < win0_2.index t (1 : Fin 3) * 62 + 62; omega
  | ⟨2, _⟩ => show win0_2.index t (2 : Fin 3) * 2048 ≤ (i 2).val ∧ (i 2).val < win0_2.index t (2 : Fin 3) * 2048 + 2048; omega

/-- THE REGION'S RESULT ARRAY after the run is the region's result function of the launch-time arguments. -/
theorem final (c : Dev nD) :
    (dats m 0 c).arrAt 2 cfg0.N = regionOut (m ((c : Thread nD τ).loc main_arg0)) (m ((c : Thread nD τ).loc main_arg1)) :=
  (dats m 0 c).arrAt_eq_of_cover 2 _ (fun t _ => flushed_eq m c t) cover

/-- The program's result: the host tail of the region's result array is the convolution. -/
theorem result_eq (c : Dev nD) :
    (Pipeline.afterTail₀ cfgs (dats m) 0 (V0 m) [hostOps1] c main_v5 : S64x32x62x62.Idx → EReal)
      = conv (m ((c : Thread nD τ).loc main_arg0)) (m ((c : Thread nD τ).loc main_arg1)) := by
  rw [HostLayout.tail_eq, final]
  funext i
  obtain ⟨b, o, oh, ow, rfl⟩ : ∃ (b : Fin 64) (o : Fin 32) (oh ow : Fin 62), i = ix4 b o oh ow := ⟨i 0, i 1, i 2, i 3, eq_ix4 i⟩
  rw [HostLayout.relaid_apply, conv_ix4]
  exact regionOut_apply _ _ oh ow o b

/-! ## The run -/

/-- Every weakly fair execution of the idealized kernel's @main terminates with the result buffer at the convolution of
    the launch-time arguments, and the arguments unchanged. -/
theorem run : θ_run defs (onTc (τ := τ) (main (F := Ideal))) ⟨m, fun _ => 0, ρ⟩ fun r => ∀ c : Dev nD,
      r.2.mem ((c.tc : Thread nD τ).loc main_v5) = conv (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.KValue

end
-- ==== Proof.RefConv.lean ====
/-
  The reference side: the reference program's result is the unshared 3×3 convolution of the specification, index by index.

  The reference gathers, for every output position `(oh, ow)` and window offset `(kh, kw)`, the input element at row
  `oh + kh` and column `ow + kw` of every batch entry and channel; transposes and flattens the gathered array to
  `[3844, 64, 144]` (position `p = oh·62 + ow`, batch entry, feature `f = c·9 + kh·3 + kw`); contracts the features with
  the per-position weights; and reshapes and transposes the `[3844, 64, 32]` product to `[64, 32, 62, 62]`.

  Read at a result index `(b, o, oh, ow)`, from the outside in:
    * the transpose and the reshape read the product at `(oh·62 + ow, b, o)`;
    * the product there is the sum over the 144 features `f` of the flattened patch at `(p, b, f)` times the weight at
      `(p, f, o)`;
    * the flattened patch at `(p, b, f)` is the transposed patch at `(oh, ow, b, f div 9, (f mod 9) div 3, f mod 3)`, the
      two having the same row-major position;
    * that is the gathered element at `(b, c, oh, kh, ow, kw)`, which is the input at `(b, c, R, C)` where `R` and `C` are the
      two start words at `(oh, kh, ow, kw)` read signed and clamped into `[0, 63]`;
    * the start words are the 32-bit sums `oh·1 + kh` and `ow·1 + kw` after the normalisation of negative indices, which
      does nothing since the sums are below 64: `R = oh + kh`, `C = ow + kw`.
  So each term is `x[b, f div 9, oh + (f mod 9) div 3, ow + f mod 3] · w[oh·62 + ow, f, o]`, the specification's term.
  Only indices are identified; no arithmetic on the extended reals is used.
-/
import proofs.«131308_j87076166959108_2_alg».proof.Proof.Gen.ReferenceIdeal.Read
import proofs.«131308_j87076166959108_2_alg».proof.Proof.ConvSpec
import Idealize.ShloMosaic.Lib.ValueIdxRank6

noncomputable section

namespace Cert.RefConv

open Idealize.ShloMosaic Idealize.ShloMosaic.ValueIdx Cert.ReferenceIdeal Cert.ReferenceIdeal.Read
open scoped BigOperators

/-! ## The start words -/

/-- The start word the reference computes for a window position `a < 62` and a window offset `k < 3`: the 32-bit
    sum `r = a · 1 + k`, then the normalisation of a negative index, `r + 64` when `r < 0` (signed) and `r` otherwise. -/
def word (a : Fin 62) (k : Fin 3) : BitVec 32 :=
  Scalar.select
    (IntOp.cmpi .slt (IntOp.addi (IntOp.muli (BitVec.ofNat 32 a.val) 1#32) (BitVec.ofNat 32 k.val)) 0#32)
    (IntOp.addi (IntOp.addi (IntOp.muli (BitVec.ofNat 32 a.val) 1#32) (BitVec.ofNat 32 k.val)) 64#32)
    (IntOp.addi (IntOp.muli (BitVec.ofNat 32 a.val) 1#32) (BitVec.ofNat 32 k.val))

/-- Read signed, the start word is `a + k`: the sum is below 64, so it is not negative and the normalisation leaves it
    alone. Checked on the 186 pairs. -/
theorem word_toNat : ∀ (a : Fin 62) (k : Fin 3), (word a k).toInt.toNat = a.val + k.val := by
  decide +kernel

/-- The clamp into `[0, 63]` leaves the start word alone as well. -/
theorem word_clamp (a : Fin 62) (k : Fin 3) : min (word a k).toInt.toNat 63 = a.val + k.val := by
  rw [word_toNat]; have := a.isLt; have := k.isLt; omega

/-! ## The gather read at an index -/

/-- The gather's dimension numbers: offset axes `[0, 1]`, collapsed operand axes `[2, 3]`, start index map `[2, 3]`,
    index vector on axis 4 of the start indices, slice sizes `[64, 16, 1, 1]`. -/
abbrev G := gather_S64x16x64x64_S62x3x62x3x2_S64x16x62x3x62x3_01_23_n_n_23_4_641611

/-- THE GATHER READ AT `(b, c, oh, kh, ow, kw)`. Operand axes 0 and 1 are offset axes that the start index map does not
    name: the start is 0 and the coordinate is the result's own `b`, `c`. Operand axes 2 and 3 are collapsed (offset 0)
    and named by the start index map: the coordinate is the start word the index array holds at `(oh, kh, ow, kw, 0)`,
    resp. `(oh, kh, ow, kw, 1)`, read signed and clamped into `[0, 64 − 1]` — here called `r` and `q`. There are no
    batching axes. -/
theorem gather_read {α : Type} {w : Nat} (x : S64x16x64x64.Idx → α) (idx : IVec S62x3x62x3x2 w)
    (b : Fin 64) (c : Fin 16) (oh : Fin 62) (kh : Fin 3) (ow : Fin 62) (kw : Fin 3) (r q : Fin 64)
    (hr : min (idx (ix5 oh kh ow kw (0 : Fin 2))).toInt.toNat 63 = r.val)
    (hq : min (idx (ix5 oh kh ow kw (1 : Fin 2))).toInt.toNat 63 = q.val) :
    Host.gather G x idx (ix6 b c oh kh ow kw) = x (ix4 b c r q) := by
  unfold Host.gather
  refine congrArg x (funext fun a => Fin.ext ?_)
  show G.start (ix6 b c oh kh ow kw) idx a + G.batchCoord (ix6 b c oh kh ow kw) a + G.offCoord (ix6 b c oh kh ow kw) a = _
  rw [GatherDims.batchCoord_eq_zero _ _ _ List.not_mem_nil, Nat.add_zero]
  match a with
  | ⟨0, _⟩ =>
    have hs : G.start (ix6 b c oh kh ow kw) idx (0 : Fin 4) = 0 := by
      unfold GatherDims.start
      have hn : ¬ (0 : Fin 4) ∈ G.startIndexMap := show ¬ (0 : Fin 4) ∈ ([2, 3] : List (Fin 4)) by decide
      rw [dif_neg hn]
    have ho : G.offCoord (ix6 b c oh kh ow kw) (0 : Fin 4) = b.val := by
      unfold GatherDims.offCoord
      have hk : (0 : Fin 4) ∈ G.sKept := show (0 : Fin 4) ∈ S64x16x64x64.kept ([2, 3] ++ [] : List (Fin 4)) by decide
      rw [dif_pos hk]
      rfl
    show G.start (ix6 b c oh kh ow kw) idx (0 : Fin 4) + G.offCoord (ix6 b c oh kh ow kw) (0 : Fin 4) = b.val
    rw [hs, ho, Nat.zero_add]
  | ⟨1, _⟩ =>
    have hs : G.start (ix6 b c oh kh ow kw) idx (1 : Fin 4) = 0 := by
      unfold GatherDims.start
      have hn : ¬ (1 : Fin 4) ∈ G.startIndexMap := show ¬ (1 : Fin 4) ∈ ([2, 3] : List (Fin 4)) by decide
      rw [dif_neg hn]
    have ho : G.offCoord (ix6 b c oh kh ow kw) (1 : Fin 4) = c.val := by
      unfold GatherDims.offCoord
      have hk : (1 : Fin 4) ∈ G.sKept := show (1 : Fin 4) ∈ S64x16x64x64.kept ([2, 3] ++ [] : List (Fin 4)) by decide
      rw [dif_pos hk]
      rfl
    show G.start (ix6 b c oh kh ow kw) idx (1 : Fin 4) + G.offCoord (ix6 b c oh kh ow kw) (1 : Fin 4) = c.val
    rw [hs, ho, Nat.zero_add]
  | ⟨2, _⟩ =>
    have ho : G.offCoord (ix6 b c oh kh ow kw) (2 : Fin 4) = 0 :=
      GatherDims.offCoord_eq_zero _ _ _ (show ¬ (2 : Fin 4) ∈ S64x16x64x64.kept ([2, 3] ++ [] : List (Fin 4)) by decide)
    have hm : (2 : Fin 4) ∈ G.startIndexMap := show (2 : Fin 4) ∈ ([2, 3] : List (Fin 4)) by decide
    have hsi : G.siIdx (ix6 b c oh kh ow kw) ⟨List.idxOf (2 : Fin 4) G.startIndexMap, List.idxOf_lt_length_iff.2 hm⟩
        = ix5 oh kh ow kw (0 : Fin 2) := by
      funext e; refine Fin.ext ?_
      match e with
      | ⟨0, _⟩ => rfl
      | ⟨1, _⟩ => rfl
      | ⟨2, _⟩ => rfl
      | ⟨3, _⟩ => rfl
      | ⟨4, _⟩ => rfl
    have hs : G.start (ix6 b c oh kh ow kw) idx (2 : Fin 4) = min (idx (ix5 oh kh ow kw (0 : Fin 2))).toInt.toNat 63 := by
      unfold GatherDims.start
      rw [dif_pos hm, hsi]
      rfl
    show G.start (ix6 b c oh kh ow kw) idx (2 : Fin 4) + G.offCoord (ix6 b c oh kh ow kw) (2 : Fin 4) = r.val
    rw [hs, ho, Nat.add_zero, hr]
  | ⟨3, _⟩ =>
    have ho : G.offCoord (ix6 b c oh kh ow kw) (3 : Fin 4) = 0 :=
      GatherDims.offCoord_eq_zero _ _ _ (show ¬ (3 : Fin 4) ∈ S64x16x64x64.kept ([2, 3] ++ [] : List (Fin 4)) by decide)
    have hm : (3 : Fin 4) ∈ G.startIndexMap := show (3 : Fin 4) ∈ ([2, 3] : List (Fin 4)) by decide
    have hsi : G.siIdx (ix6 b c oh kh ow kw) ⟨List.idxOf (3 : Fin 4) G.startIndexMap, List.idxOf_lt_length_iff.2 hm⟩
        = ix5 oh kh ow kw (1 : Fin 2) := by
      funext e; refine Fin.ext ?_
      match e with
      | ⟨0, _⟩ => rfl
      | ⟨1, _⟩ => rfl
      | ⟨2, _⟩ => rfl
      | ⟨3, _⟩ => rfl
      | ⟨4, _⟩ => rfl
    have hs : G.start (ix6 b c oh kh ow kw) idx (3 : Fin 4) = min (idx (ix5 oh kh ow kw (1 : Fin 2))).toInt.toNat 63 := by
      unfold GatherDims.start
      rw [dif_pos hm, hsi]
      rfl
    show G.start (ix6 b c oh kh ow kw) idx (3 : Fin 4) + G.offCoord (ix6 b c oh kh ow kw) (3 : Fin 4) = q.val
    rw [hs, ho, Nat.add_zero, hq]

/-! ## The two components of the start index -/

/-- The row start word: the first of the two concatenated index arrays at `(oh, kh, ow, kw, 0)`. It is broadcast from
    the `[62, 3, 1, 1]` array of normalised sums `oh · 1 + kh`, so it does not depend on `ow`, `kw`. -/
theorem v32_at (oh : Fin 62) (kh : Fin 3) (ow : Fin 62) (kw : Fin 3) :
    val_main_v32 (F := Ideal) (ix5 oh kh ow kw (0 : Fin 1)) = word oh kh := by
  simp only [val_main_v32_apply, val_main_v30_apply, val_main_v24_apply, val_main_v21_apply, val_main_v23_apply,
    val_main_v18_apply, val_main_v20_apply, val_main_v22_apply, val_main_c_1_apply, val_main_c_2_apply,
    val_main_v8_apply, val_main_v6_apply, val_main_v7_apply, val_main_v3_apply, val_main_v2_apply, val_main_v0_apply,
    val_main_v1_apply, val_main_c_apply, val_main_v5_apply, val_main_v4_apply]
  rfl

/-- The column start word: the second of the two concatenated index arrays at `(oh, kh, ow, kw, 0)`. It is broadcast from
    the `[1, 1, 62, 3]` array of normalised sums `ow · 1 + kw`, so it does not depend on `oh`, `kh`. -/
theorem v33_at (oh : Fin 62) (kh : Fin 3) (ow : Fin 62) (kw : Fin 3) :
    val_main_v33 (F := Ideal) (ix5 oh kh ow kw (0 : Fin 1)) = word ow kw := by
  simp only [val_main_v33_apply, val_main_v31_apply, val_main_v29_apply, val_main_v26_apply, val_main_v28_apply,
    val_main_v19_apply, val_main_v25_apply, val_main_v27_apply, val_main_c_3_apply, val_main_c_4_apply,
    val_main_v17_apply, val_main_v15_apply, val_main_v16_apply, val_main_v12_apply, val_main_v11_apply, val_main_v9_apply,
    val_main_v10_apply, val_main_c_0_apply, val_main_v14_apply, val_main_v13_apply]
  rfl

/-- Component 0 of the start index at `(oh, kh, ow, kw)` — the concatenation's first piece — is the row word. -/
theorem v34_row (oh : Fin 62) (kh : Fin 3) (ow : Fin 62) (kw : Fin 3) :
    val_main_v34 (F := Ideal) (ix5 oh kh ow kw (0 : Fin 2)) = word oh kh := by
  unfold val_main_v34
  refine (concatenate_pair_apply_left (t := S62x3x62x3x2) (s₁ := S62x3x62x3x1) (s₂ := S62x3x62x3x1) _ _ _ _ (ix5 oh kh ow kw (0 : Fin 2)) rfl (ix5 oh kh ow kw (0 : Fin 1)) ?_).trans
    (v32_at oh kh ow kw)
  intro e
  match e with
  | ⟨0, _⟩ => rfl
  | ⟨1, _⟩ => rfl
  | ⟨2, _⟩ => rfl
  | ⟨3, _⟩ => rfl
  | ⟨4, _⟩ => rfl

/-- Component 1 of the start index at `(oh, kh, ow, kw)` — the concatenation's second piece, at position `1 − 1 = 0` of
    its unit axis — is the column word. -/
theorem v34_col (oh : Fin 62) (kh : Fin 3) (ow : Fin 62) (kw : Fin 3) :
    val_main_v34 (F := Ideal) (ix5 oh kh ow kw (1 : Fin 2)) = word ow kw := by
  unfold val_main_v34
  refine (concatenate_pair_apply_right (t := S62x3x62x3x2) (s₁ := S62x3x62x3x1) (s₂ := S62x3x62x3x1) _ _ _ _ (ix5 oh kh ow kw (1 : Fin 2)) rfl rfl (ix5 oh kh ow kw (0 : Fin 1)) ?_ rfl).trans
    (v33_at oh kh ow kw)
  intro e he
  match e, he with
  | ⟨0, _⟩, _ => rfl
  | ⟨1, _⟩, _ => rfl
  | ⟨2, _⟩, _ => rfl
  | ⟨3, _⟩, _ => rfl
  | ⟨4, _⟩, he => exact absurd rfl he

/-! ## The patches, and the result -/

/-- The gathered patches at `(b, c, oh, kh, ow, kw)`: the input at channel `c`, row `oh + kh`, column `ow + kw`. The two
    start words are `oh + kh` and `ow + kw`, both below 64, so neither the signed reading nor the clamp changes them. -/
theorem v35_at (x : (⟨S64x16x64x64, .f32⟩ : BufTy).Contents (Elt Ideal))
    (b : Fin 64) (c : Fin 16) (oh : Fin 62) (kh : Fin 3) (ow : Fin 62) (kw : Fin 3) :
    val_main_v35 (F := Ideal) x (ix6 b c oh kh ow kw)
      = x (ix4 b c (⟨oh.val + kh.val, by have := oh.isLt; have := kh.isLt; omega⟩ : Fin 64)
            (⟨ow.val + kw.val, by have := ow.isLt; have := kw.isLt; omega⟩ : Fin 64)) := by
  unfold val_main_v35
  refine gather_read x (val_main_v34 (F := Ideal)) b c oh kh ow kw _ _ ?_ ?_
  · rw [v34_row]; exact word_clamp oh kh
  · rw [v34_col]; exact word_clamp ow kw

/-- The transposed patches at `(oh, ow, b, c, kh, kw)`. -/
theorem v36_at (x : (⟨S64x16x64x64, .f32⟩ : BufTy).Contents (Elt Ideal))
    (oh ow : Fin 62) (b : Fin 64) (c : Fin 16) (kh kw : Fin 3) :
    val_main_v36 (F := Ideal) x (ix6 oh ow b c kh kw)
      = x (ix4 b c (⟨oh.val + kh.val, by have := oh.isLt; have := kh.isLt; omega⟩ : Fin 64)
            (⟨ow.val + kw.val, by have := ow.isLt; have := kw.isLt; omega⟩ : Fin 64)) := by
  rw [val_main_v36_apply]
  have e : idx_main_v36 (ix6 oh ow b c kh kw) = ix6 b c oh kh ow kw := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  exact v35_at x b c oh kh ow kw

/-- The flattened patches at position `p = oh · 62 + ow`, batch entry `b`, feature `f`: the reshape keeps the row-major
    position, and `((((oh·62 + ow)·64 + b)·16 + c)·3 + kh)·3 + kw = ((oh·62 + ow)·64 + b)·144 + f` for
    `c = f div 9`, `kh = (f mod 9) div 3`, `kw = f mod 3`. So the element is the input at the specification's `xAt`. -/
theorem v37_at (x : (⟨S64x16x64x64, .f32⟩ : BufTy).Contents (Elt Ideal)) (oh ow : Fin 62) (b : Fin 64) (f : Fin 144) :
    val_main_v37 (F := Ideal) x
        (ix3 (⟨oh.val * 62 + ow.val, by have := oh.isLt; have := ow.isLt; omega⟩ : Fin 3844) b f)
      = x (Cert.ConvSpec.xAt b oh ow f) := by
  have hf := f.isLt
  have h := v36_at x oh ow b (⟨f.val / 9, by omega⟩ : Fin 16) (⟨f.val % 9 / 3, by omega⟩ : Fin 3)
    (⟨f.val % 3, by omega⟩ : Fin 3)
  refine Eq.trans ?_ h
  unfold val_main_v37
  generalize val_main_v36 (F := Ideal) x = y
  refine shapeCast_apply y _ _ _ ?_
  rw [Shape.rowMajor_val_six, Shape.rowMajor_val_three]
  have := oh.isLt; have := ow.isLt; have := b.isLt
  show ((((oh.val * 62 + ow.val) * 64 + b.val) * 16 + f.val / 9) * 3 + f.val % 9 / 3) * 3 + f.val % 3
    = ((oh.val * 62 + ow.val) * 64 + b.val) * 144 + f.val
  omega

/-- The reference's result at `(b, o, oh, ow)`. The final transpose and reshape read the contraction at `(oh·62 + ow, b, o)`,
    the contraction is the sum over the 144 features of the flattened patch times the weight, and the flattened patch is the
    input at `xAt`: term by term the specification's sum. -/
theorem v40_at (x : (⟨S64x16x64x64, .f32⟩ : BufTy).Contents (Elt Ideal))
    (w : (⟨S3844x144x32, .f32⟩ : BufTy).Contents (Elt Ideal)) (b : Fin 64) (o : Fin 32) (oh ow : Fin 62) :
    val_main_v40 (F := Ideal) x w (ix4 b o oh ow) = Cert.ConvSpec.convAt x w b o oh ow := by
  rw [val_main_v40_apply, val_main_v39_apply]
  have e : idx_main_v39 (idx_main_v40 (ix4 b o oh ow))
      = ix3 (⟨oh.val * 62 + ow.val, by have := oh.isLt; have := ow.isLt; omega⟩ : Fin 3844) b o := by
    have := oh.isLt; have := ow.isLt; have := b.isLt; have := o.isLt
    funext a
    match a with
    | ⟨0, _⟩ =>
      refine Fin.ext ?_
      show (((oh.val * 62 + ow.val) * 64 + b.val) * 32 + o.val) / 2048 = oh.val * 62 + ow.val
      omega
    | ⟨1, _⟩ =>
      refine Fin.ext ?_
      show (((oh.val * 62 + ow.val) * 64 + b.val) * 32 + o.val) / 32 % 64 = b.val
      omega
    | ⟨2, _⟩ =>
      refine Fin.ext ?_
      show (((oh.val * 62 + ow.val) * 64 + b.val) * 32 + o.val) % 32 = o.val
      omega
  rw [e, val_main_v38_apply]
  unfold Cert.ConvSpec.convAt
  refine Finset.sum_congr rfl fun f _ => ?_
  have el : lidx_main_v38 (ix3 (⟨oh.val * 62 + ow.val, by have := oh.isLt; have := ow.isLt; omega⟩ : Fin 3844) b o) f
      = ix3 (⟨oh.val * 62 + ow.val, by have := oh.isLt; have := ow.isLt; omega⟩ : Fin 3844) b f := by
    funext a
    match a with
    | ⟨0, _⟩ => rfl
    | ⟨1, _⟩ => rfl
    | ⟨2, _⟩ => rfl
  have er : ridx_main_v38 (ix3 (⟨oh.val * 62 + ow.val, by have := oh.isLt; have := ow.isLt; omega⟩ : Fin 3844) b o) f
      = Cert.ConvSpec.wAt o oh ow f := by
    funext a
    match a with
    | ⟨0, _⟩ => rfl
    | ⟨1, _⟩ => rfl
    | ⟨2, _⟩ => rfl
  rw [el, er, v37_at]

/-- THE REFERENCE IS THE CONVOLUTION: the two arrays agree at every index `(b, o, oh, ow)`. -/
theorem ref_is_conv [Cert.ReferenceIdeal.Facts] (x : (⟨S64x16x64x64, .f32⟩ : BufTy).Contents (Elt Ideal))
    (w : (⟨S3844x144x32, .f32⟩ : BufTy).Contents (Elt Ideal)) :
    Cert.ReferenceIdeal.Read.val_main_v40 (F := Ideal) x w = Cert.ConvSpec.conv x w := by
  funext i
  exact (congrArg (val_main_v40 (F := Ideal) x w) (eq_ix4 i)).trans (v40_at x w (i 0) (i 1) (i 2) (i 3))

end Cert.RefConv
end
-- ==== Proof.lean ====
/-
  The certificate of an unshared ("locally connected") 3×3 convolution kernel against its jnp reference:
  frames of the three programs, the (empty) idealization ledger, and equality of the two idealized programs' results on the
  extended reals.

  The mathematics. For an input x : [64, 16, 64, 64] (batch, channel, row, column) and per-position weights
  w : [3844, 144, 32] (position oh·62 + ow, feature, output channel) both programs compute, at (b, o, oh, ow),

      ∑ over the 144 features (c, kh, kw) of  x[b, c, oh + kh, ow + kw] · w[oh·62 + ow, c·9 + kh·3 + kw, o]

  (Proof/ConvSpec.lean). The reference gathers the 3×3 patches with computed start indices, flattens them channel-slowest
  and contracts them with the weights on the host (Proof/RefConv.lean reads its generated run at an index). The kernel
  keeps the input resident as (row, column, batch·16 + channel), and at grid point oh builds the patches of output row oh
  in a scratch from nine shifted slabs of three input rows, re-lays the weight block channel-fastest, and contracts
  the two by one batched matmul into a zero accumulator; the host then splits the lane axis into (output channel, batch) and
  transposes (Proof/Body.lean, Proof/BodyValue.lean, Proof/HostLayout.lean, Proof/KernelValue.lean). The two sums differ by
  the order of the 144 terms and of each product's factors, and a change of float format is the identity at the ideal
  instance: reindexing a finite sum by a bijection and commuting products hold on all extended reals, so the precondition
  (finite inputs) is never used. The idealization pass rewrote nothing, so `preserves` is trivial.
-/
import proofs.«131308_j87076166959108_2_alg».proof.Defs
import proofs.«131308_j87076166959108_2_alg».proof.Proof.Gen.Kernel
import proofs.«131308_j87076166959108_2_alg».proof.Proof.Gen.Kernel.Skeleton
import proofs.«131308_j87076166959108_2_alg».proof.Proof.Gen.Kernel.Launch
import proofs.«131308_j87076166959108_2_alg».proof.Proof.Gen.Kernel.Points
import proofs.«131308_j87076166959108_2_alg».proof.Proof.Gen.Kernel.Frame
import proofs.«131308_j87076166959108_2_alg».proof.Proof.Gen.KernelIdeal
import proofs.«131308_j87076166959108_2_alg».proof.Proof.Gen.KernelIdeal.Skeleton
import proofs.«131308_j87076166959108_2_alg».proof.Proof.Gen.KernelIdeal.Launch
import proofs.«131308_j87076166959108_2_alg».proof.Proof.Gen.KernelIdeal.Points
import proofs.«131308_j87076166959108_2_alg».proof.Proof.Gen.KernelIdeal.Frame
import proofs.«131308_j87076166959108_2_alg».proof.Proof.Gen.ReferenceIdeal
import proofs.«131308_j87076166959108_2_alg».proof.Proof.Gen.ReferenceIdeal.Run
import proofs.«131308_j87076166959108_2_alg».proof.Proof.Gen.ReferenceIdeal.Read
import proofs.«131308_j87076166959108_2_alg».proof.Proof.Gen.Pre_finite_inputs
import proofs.«131308_j87076166959108_2_alg».proof.Proof.KernelValue
import proofs.«131308_j87076166959108_2_alg».proof.Proof.RefConv
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both idealized programs end with the convolution of the (agreeing) arguments in their result buffers. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.RefConv.ref_is_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
